-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S200000x64 : Shape := ⟨2, ![200000, 64]⟩
abbrev S600000 : Shape := ⟨1, ![600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg18 : FVec F S128x32 .f32) (main_arg19 : FVec F S32 .f32) (main_v63 : IVec S_ 1) (main_v67 : IVec S_ 1) : IVec S_ 1 :=
  let main_v68 : IVec S_ 1 := andi main_v63 main_v67
  let main_v69 : FVec F S128x32 .f32 := Host.absf main_arg18
  let main_cst_26 : FVec F S_ .f32 := constant S_ .f32 0x7F800000#32
  let main_v70 : FVec F S128x32 .f32 := broadcastInDim S128x32 ![] bcast_S_S128x32 main_cst_26
  let main_v71 : IVec S128x32 1 := cmpf .olt main_v69 main_v70
  let main_c_27 : IVec S_ 1 := constantI S_ 1 1#1
  let main_v72 : IVec S_ 1 := (fun x v => Host.reduce IntOp.andi x v reducesTo_S128x32_S_d0_1 h_S_) main_v71 main_c_27
  let main_v73 : IVec S_ 1 := andi main_v68 main_v72
  let main_v74 : FVec F S32 .f32 := Host.absf main_arg19
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg15 : FVec F S128x128 .f32) (main_arg16 : FVec F S128x128 .f32) (main_arg17 : FVec F S128 .f32) (main_arg18 : FVec F S128x32 .f32) (main_arg19 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg16
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_v63 main_v67

def fn_part2 {F : FTy → Type} [FloatOps F] (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x32 .f32) (main_arg19 : FVec F S32 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_v48 main_v49 main_v50

def fn_part1 {F : FTy → Type} [FloatOps F] (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x32 .f32) (main_arg19 : FVec F S32 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg9
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64x128 .f32 := Host.absf main_arg10
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S20000x64 .f32) (main_arg1 : FVec F S200000x64 .f32) (main_arg2 : IVec S600000 32) (main_arg3 : IVec S600000 32) (main_arg4 : IVec S600000 32) (main_arg5 : IVec S600000 32) (main_arg6 : FVec F S64x128 .f32) (main_arg7 : FVec F S64x128 .f32) (main_arg8 : FVec F S128 .f32) (main_arg9 : FVec F S64x128 .f32) (main_arg10 : FVec F S64x128 .f32) (main_arg11 : FVec F S128 .f32) (main_arg12 : FVec F S128x128 .f32) (main_arg13 : FVec F S128x128 .f32) (main_arg14 : FVec F S128 .f32) (main_arg15 : FVec F S128x128 .f32) (main_arg16 : FVec F S128x128 .f32) (main_arg17 : FVec F S128 .f32) (main_arg18 : FVec F S128x32 .f32) (main_arg19 : FVec F S32 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64x128 .f32 := Host.absf main_arg7
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S20000x64 : Shape := ⟨2, ![20000, 64]⟩
abbrev S200000x64 : Shape := ⟨2, ![200000, 64]⟩
abbrev S600000 : Shape := ⟨1, ![600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩
abbrev S600000x1 : Shape := ⟨2, ![600000, 1]⟩
abbrev S600000x64 : Shape := ⟨2, ![600000, 64]⟩
abbrev S200000 : Shape := ⟨1, ![200000]⟩
abbrev S200000x1 : Shape := ⟨2, ![200000, 1]⟩
abbrev S20000 : Shape := ⟨1, ![20000]⟩
abbrev S20000x1 : Shape := ⟨2, ![20000, 1]⟩
abbrev S1x128 : Shape := ⟨2, ![1, 128]⟩
abbrev S200000x128 : Shape := ⟨2, ![200000, 128]⟩
abbrev S5000x64 : Shape := ⟨2, ![5000, 64]⟩
abbrev S5000x128 : Shape := ⟨2, ![5000, 128]⟩
abbrev S20000x128 : Shape := ⟨2, ![20000, 128]⟩
abbrev S600000x128 : Shape := ⟨2, ![600000, 128]⟩
abbrev S1x32 : Shape := ⟨2, ![1, 32]⟩
abbrev S200000x32 : Shape := ⟨2, ![200000, 32]⟩
abbrev S5000x32 : Shape := ⟨2, ![5000, 32]⟩

abbrev nBuf : Space → Nat
  | .hbm => 105
  | .vmem => 29
  | .smem => 0
  | _ => 0

abbrev bufTy : (tb : Table) → Fin (tcTables nBuf tb) → BufTy
  | .hbm, ⟨0, _⟩ => ⟨S20000x64, .f32⟩
  | .hbm, ⟨1, _⟩ => ⟨S200000x64, .f32⟩
  | .hbm, ⟨2, _⟩ => ⟨S600000, .i32⟩
  | .hbm, ⟨3, _⟩ => ⟨S600000, .i32⟩
  | .hbm, ⟨4, _⟩ => ⟨S600000, .i32⟩
  | .hbm, ⟨5, _⟩ => ⟨S600000, .i32⟩
  | .hbm, ⟨6, _⟩ => ⟨S64x128, .f32⟩
  | .hbm, ⟨7, _⟩ => ⟨S64x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128x128, .f32⟩
  | .hbm, ⟨17, _⟩ => ⟨S128, .f32⟩
  | .hbm, ⟨18, _⟩ => ⟨S128x32, .f32⟩
  | .hbm, ⟨19, _⟩ => ⟨S32, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x64, .f32⟩
  | .hbm, ⟨29, _⟩ => ⟨S_, .f32⟩
  | .hbm, ⟨30, _⟩ => ⟨S200000x64, .f32⟩
  | .hbm, ⟨31, _⟩ => ⟨S600000x1, .i32⟩
  | .hbm, ⟨32, _⟩ => ⟨S200000x64, .f32⟩
  | .hbm, ⟨33, _⟩ => ⟨S_, .f32⟩
  | .hbm, ⟨34, _⟩ => ⟨S600000, .f32⟩
  | .hbm, ⟨35, _⟩ => ⟨S_, .f32⟩
  | .hbm, ⟨36, _⟩ => ⟨S200000, .f32⟩
  | .hbm, ⟨37, _⟩ => ⟨S600000x1, .i32⟩
  | .hbm, ⟨38, _⟩ => ⟨S200000, .f32⟩
  | .hbm, ⟨39, _⟩ => ⟨S_, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S200000x1, .f32⟩
  | .hbm, ⟨44, _⟩ => ⟨S200000x64, .f32⟩
  | .hbm, ⟨45, _⟩ => ⟨S200000x64, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x64, .f32⟩
  | .hbm, ⟨55, _⟩ => ⟨S_, .f32⟩
  | .hbm, ⟨56, _⟩ => ⟨S20000x64, .f32⟩
  | .hbm, ⟨57, _⟩ => ⟨S600000x1, .i32⟩
  | .hbm, ⟨58, _⟩ => ⟨S20000x64, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S20000, .f32⟩
  | .hbm, ⟨63, _⟩ => ⟨S600000x1, .i32⟩
  | .hbm, ⟨64, _⟩ => ⟨S20000, .f32⟩
  | .hbm, ⟨65, _⟩ => ⟨S_, .f32⟩
  | .hbm, ⟨66, _⟩ => ⟨S_, .f32⟩
  | .hbm, ⟨67, _⟩ => ⟨S20000, .f32⟩
  | .hbm, ⟨68, _⟩ => ⟨S20000, .f32⟩
  | .hbm, ⟨69, _⟩ => ⟨S20000x1, .f32⟩
  | .hbm, ⟨70, _⟩ => ⟨S20000x64, .f32⟩
  | .hbm, ⟨71, _⟩ => ⟨S20000x64, .f32⟩
  | .hbm, ⟨72, _⟩ => ⟨S1x128, .f32⟩
  | .hbm, ⟨73, _⟩ => ⟨S200000x128, .f32⟩
  | .hbm, ⟨74, _⟩ => ⟨S1x128, .f32⟩
  | .hbm, ⟨75, _⟩ => ⟨S20000x128, .f32⟩
  | .hbm, ⟨76, _⟩ => ⟨S_, .i32⟩
  | .hbm, ⟨77, _⟩ => ⟨S600000, .i32⟩
  | .hbm, ⟨78, _⟩ => ⟨S600000, .i1⟩
  | .hbm, ⟨79, _⟩ => ⟨S_, .i32⟩
  | .hbm, ⟨80, _⟩ => ⟨S600000, .i32⟩
  | .hbm, ⟨81, _⟩ => ⟨S600000, .i32⟩
  | .hbm, ⟨82, _⟩ => ⟨S600000, .i32⟩
  | .hbm, ⟨83, _⟩ => ⟨S600000x1, .i32⟩
  | .hbm, ⟨84, _⟩ => ⟨S600000x128, .f32⟩
  | .hbm, ⟨85, _⟩ => ⟨S_, .f32⟩
  | .hbm, ⟨86, _⟩ => ⟨S200000x128, .f32⟩
  | .hbm, ⟨87, _⟩ => ⟨S600000x1, .i32⟩
  | .hbm, ⟨88, _⟩ => ⟨S200000x128, .f32⟩
  | .hbm, ⟨89, _⟩ => ⟨S_, .f32⟩
  | .hbm, ⟨90, _⟩ => ⟨S600000, .f32⟩
  | .hbm, ⟨91, _⟩ => ⟨S_, .f32⟩
  | .hbm, ⟨92, _⟩ => ⟨S200000, .f32⟩
  | .hbm, ⟨93, _⟩ => ⟨S600000x1, .i32⟩
  | .hbm, ⟨94, _⟩ => ⟨S200000, .f32⟩
  | .hbm, ⟨95, _⟩ => ⟨S_, .f32⟩
  | .hbm, ⟨96, _⟩ => ⟨S_, .f32⟩
  | .hbm, ⟨97, _⟩ => ⟨S200000, .f32⟩
  | .hbm, ⟨98, _⟩ => ⟨S200000, .f32⟩
  | .hbm, ⟨99, _⟩ => ⟨S200000x1, .f32⟩
  | .hbm, ⟨100, _⟩ => ⟨S200000x128, .f32⟩
  | .hbm, ⟨101, _⟩ => ⟨S200000x128, .f32⟩
  | .hbm, ⟨102, _⟩ => ⟨S1x128, .f32⟩
  | .hbm, ⟨103, _⟩ => ⟨S1x32, .f32⟩
  | .hbm, ⟨104, _⟩ => ⟨S200000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x128, .f32⟩
  | .local _ .vmem, ⟨14, _⟩ => ⟨S64x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S128x32, .f32⟩
  | .local _ .vmem, ⟨26, _⟩ => ⟨S1x32, .f32⟩
  | .local _ .vmem, ⟨27, _⟩ => ⟨S5000x32, .f32⟩
  | .local _ .vmem, ⟨28, _⟩ => ⟨S5000x32, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_cst_8 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_cst_14 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_15 : Ref sig .tc := ⟨.hbm, 95, rfl⟩
abbrev main_call2_v0 : Ref sig .tc := ⟨.hbm, 96, rfl⟩
abbrev main_call2_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  shapeCasts_S32_S1x32 : S32.ShapeCasts S1x32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S20000x64_S600000x1_S600000x64_1_0_n_n_0_1_164_wf : GatherDims.WF S20000x64 S600000x1 S600000x64 [1] [0] [] [0] [] 1 ![1, 64]
  scatter_S200000x64_S600000x1_S600000x64_1_0_0_1_wf : ScatterDims.WF S200000x64 S600000x1 S600000x64 [1] [0] [0] 1
  scatter_S200000_S600000x1_S600000_n_0_0_1_wf : ScatterDims.WF S200000 S600000x1 S600000 [] [0] [0] 1
  gather_S200000x64_S600000x1_S600000x64_1_0_n_n_0_1_164_wf : GatherDims.WF S200000x64 S600000x1 S600000x64 [1] [0] [] [0] [] 1 ![1, 64]
  scatter_S20000x64_S600000x1_S600000x64_1_0_0_1_wf : ScatterDims.WF S20000x64 S600000x1 S600000x64 [1] [0] [0] 1
  scatter_S20000_S600000x1_S600000_n_0_0_1_wf : ScatterDims.WF S20000 S600000x1 S600000 [] [0] [0] 1
  dot_S5000x64_S64x128_S5000x128_1_0_0_1_n_n_wf : DotDims.WF S5000x64 S64x128 S5000x128 [1] [0] [0] [1] [] []
  gather_S20000x128_S600000x1_S600000x128_1_0_n_n_0_1_1128_wf : GatherDims.WF S20000x128 S600000x1 S600000x128 [1] [0] [] [0] [] 1 ![1, 128]
  scatter_S200000x128_S600000x1_S600000x128_1_0_0_1_wf : ScatterDims.WF S200000x128 S600000x1 S600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S20000x64.size a
  hwx1_0 : ∀ i : grid1.Coords, EltTy.bits .f32 = 32 ∨ (Rect.block (s := S20000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S20000x64.size a
  hwx1_1 : ∀ i : grid1.Coords, EltTy.bits .f32 = 32 ∨ (Rect.block (s := S20000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S20000x128.size a
  hwx1_5 : ∀ i : grid1.Coords, EltTy.bits .f32 = 32 ∨ (Rect.block (s := S20000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x32.size a ≤ S200000x32.size a
  hwx2_7 : ∀ i : grid2.Coords, EltTy.bits .f32 = 32 ∨ (Rect.block (s := S200000x32) S5000x32.size (cc2_transform_7 i) (hinb2_7 i)).WholeWords (EltTy.packing .f32)

variable [Facts₀]

def gather_S20000x64_S600000x1_S600000x64_1_0_n_n_0_1_164 : GatherDims S20000x64 S600000x1 S600000x64 where
  offsetDims := [1]
  collapsedSliceDims := [0]
  operandBatchingDims := []
  startIndicesBatchingDims := []
  startIndexMap := [0]
  indexVectorDim := 1
  sliceSizes := ![1, 64]
  wf := gather_S20000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S20000x64_S600000x1_S600000x64_1_0_0_1 : ScatterDims S20000x64 S600000x1 S600000x64 where
  updateWindowDims := [1]
  insertedWindowDims := [0]
  scatterDimsToOperandDims := [0]
  indexVectorDim := 1
  wf := scatter_S20000x64_S600000x1_S600000x64_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg18) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S5000x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x64 : Shape := ⟨2, ![20000, 64]⟩
abbrev S200000x64 : Shape := ⟨2, ![200000, 64]⟩
abbrev S600000 : Shape := ⟨1, ![600000]⟩
abbrev S64x128 : Shape := ⟨2, ![64, 128]⟩
abbrev S128 : Shape := ⟨1, ![128]⟩
abbrev S128x128 : Shape := ⟨2, ![128, 128]⟩
abbrev S128x32 : Shape := ⟨2, ![128, 32]⟩
abbrev S32 : Shape := ⟨1, ![32]⟩
abbrev S_ : Shape := ⟨0, ![]⟩
abbrev S600000x1 : Shape := ⟨2, ![600000, 1]⟩
abbrev S600000x64 : Shape := ⟨2, ![600000, 64]⟩
abbrev S200000 : Shape := ⟨1, ![200000]⟩
abbrev S200000x1 : Shape := ⟨2, ![200000, 1]⟩
abbrev S200000x128 : Shape := ⟨2, ![200000, 128]⟩
abbrev S1x128 : Shape := ⟨2, ![1, 128]⟩
abbrev S20000 : Shape := ⟨1, ![20000]⟩
abbrev S20000x1 : Shape := ⟨2, ![20000, 1]⟩
abbrev S20000x128 : Shape := ⟨2, ![20000, 128]⟩
abbrev S600000x128 : Shape := ⟨2, ![600000, 128]⟩
abbrev S200000x32 : Shape := ⟨2, ![200000, 32]⟩
abbrev S1x32 : Shape := ⟨2, ![1, 32]⟩

abbrev nBuf : Space → Nat
  | .hbm => 180
  | .vmem => 0
  | .smem => 0
  | _ => 0

abbrev hbmTy0_0 (i : Nat) : BufTy := match i % 128 with
  | 0 => ⟨S20000x64, .f32⟩
  | 1 => ⟨S200000x64, .f32⟩
  | 2 => ⟨S600000, .i32⟩
  | 3 => ⟨S600000, .i32⟩
  | 4 => ⟨S600000, .i32⟩
  | 5 => ⟨S600000, .i32⟩
  | 6 => ⟨S64x128, .f32⟩
  | 7 => ⟨S64x128, .f32⟩
  | 8 => ⟨S128, .f32⟩
  | 9 => ⟨S64x128, .f32⟩
  | 10 => ⟨S64x128, .f32⟩
  | 11 => ⟨S128, .f32⟩
  | 12 => ⟨S128x128, .f32⟩
  | 13 => ⟨S128x128, .f32⟩
  | 14 => ⟨S128, .f32⟩
  | 15 => ⟨S128x128, .f32⟩
  | 16 => ⟨S128x128, .f32⟩
  | 17 => ⟨S128, .f32⟩
  | 18 => ⟨S128x32, .f32⟩
  | 19 => ⟨S32, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x64, .f32⟩
  | 29 => ⟨S_, .f32⟩
  | 30 => ⟨S200000x64, .f32⟩
  | 31 => ⟨S600000x1, .i32⟩
  | 32 => ⟨S200000x64, .f32⟩
  | 33 => ⟨S_, .f32⟩
  | 34 => ⟨S600000, .f32⟩
  | 35 => ⟨S_, .f32⟩
  | 36 => ⟨S200000, .f32⟩
  | 37 => ⟨S600000x1, .i32⟩
  | 38 => ⟨S200000, .f32⟩
  | 39 => ⟨S_, .f32⟩
  | 40 => ⟨S_, .f32⟩
  | 41 => ⟨S200000, .f32⟩
  | 42 => ⟨S200000, .f32⟩
  | 43 => ⟨S200000x1, .f32⟩
  | 44 => ⟨S200000x64, .f32⟩
  | 45 => ⟨S200000x64, .f32⟩
  | 46 => ⟨S200000x128, .f32⟩
  | 47 => ⟨S1x128, .f32⟩
  | 48 => ⟨S200000x128, .f32⟩
  | 49 => ⟨S200000x128, .f32⟩
  | 50 => ⟨S200000x128, .f32⟩
  | 51 => ⟨S200000x128, .f32⟩
  | 52 => ⟨S_, .f32⟩
  | 53 => ⟨S200000x128, .f32⟩
  | 54 => ⟨S200000x128, .i1⟩
  | 55 => ⟨S_, .f32⟩
  | 56 => ⟨S200000x128, .f32⟩
  | 57 => ⟨S200000x128, .f32⟩
  | 58 => ⟨S200000x128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x64, .f32⟩
  | 68 => ⟨S_, .f32⟩
  | 69 => ⟨S20000x64, .f32⟩
  | 70 => ⟨S600000x1, .i32⟩
  | 71 => ⟨S20000x64, .f32⟩
  | 72 => ⟨S_, .f32⟩
  | 73 => ⟨S600000, .f32⟩
  | 74 => ⟨S_, .f32⟩
  | 75 => ⟨S20000, .f32⟩
  | 76 => ⟨S600000x1, .i32⟩
  | 77 => ⟨S20000, .f32⟩
  | 78 => ⟨S_, .f32⟩
  | 79 => ⟨S_, .f32⟩
  | 80 => ⟨S20000, .f32⟩
  | 81 => ⟨S20000, .f32⟩
  | 82 => ⟨S20000x1, .f32⟩
  | 83 => ⟨S20000x64, .f32⟩
  | 84 => ⟨S20000x64, .f32⟩
  | 85 => ⟨S20000x128, .f32⟩
  | 86 => ⟨S1x128, .f32⟩
  | 87 => ⟨S20000x128, .f32⟩
  | 88 => ⟨S20000x128, .f32⟩
  | 89 => ⟨S20000x128, .f32⟩
  | 90 => ⟨S20000x128, .f32⟩
  | 91 => ⟨S_, .f32⟩
  | 92 => ⟨S20000x128, .f32⟩
  | 93 => ⟨S20000x128, .i1⟩
  | 94 => ⟨S_, .f32⟩
  | 95 => ⟨S20000x128, .f32⟩
  | 96 => ⟨S20000x128, .f32⟩
  | 97 => ⟨S20000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S200000x128, .f32⟩
  | 109 => ⟨S600000x1, .i32⟩
  | 110 => ⟨S200000x128, .f32⟩
  | 111 => ⟨S_, .f32⟩
  | 112 => ⟨S600000, .f32⟩
  | 113 => ⟨S_, .f32⟩
  | 114 => ⟨S200000, .f32⟩
  | 115 => ⟨S600000x1, .i32⟩
  | 116 => ⟨S200000, .f32⟩
  | 117 => ⟨S_, .f32⟩
  | 118 => ⟨S_, .f32⟩
  | 119 => ⟨S200000, .f32⟩
  | 120 => ⟨S200000, .f32⟩
  | 121 => ⟨S200000x1, .f32⟩
  | 122 => ⟨S200000x128, .f32⟩
  | 123 => ⟨S200000x128, .f32⟩
  | 124 => ⟨S200000x128, .f32⟩
  | 125 => ⟨S1x128, .f32⟩
  | 126 => ⟨S200000x128, .f32⟩
  | 127 => ⟨S200000x128, .f32⟩
  | _ => ⟨S20000x64, .f32⟩

abbrev hbmTy0_1 (i : Nat) : BufTy := match i % 128 with
  | 0 => ⟨S200000x128, .f32⟩
  | 1 => ⟨S200000x128, .f32⟩
  | 2 => ⟨S_, .f32⟩
  | 3 => ⟨S200000x128, .f32⟩
  | 4 => ⟨S200000x128, .i1⟩
  | 5 => ⟨S_, .f32⟩
  | 6 => ⟨S200000x128, .f32⟩
  | 7 => ⟨S200000x128, .f32⟩
  | 8 => ⟨S200000x128, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S_, .f32⟩
  | 19 => ⟨S20000x128, .f32⟩
  | 20 => ⟨S600000x1, .i32⟩
  | 21 => ⟨S20000x128, .f32⟩
  | 22 => ⟨S_, .f32⟩
  | 23 => ⟨S600000, .f32⟩
  | 24 => ⟨S_, .f32⟩
  | 25 => ⟨S20000, .f32⟩
  | 26 => ⟨S600000x1, .i32⟩
  | 27 => ⟨S20000, .f32⟩
  | 28 => ⟨S_, .f32⟩
  | 29 => ⟨S_, .f32⟩
  | 30 => ⟨S20000, .f32⟩
  | 31 => ⟨S20000, .f32⟩
  | 32 => ⟨S20000x1, .f32⟩
  | 33 => ⟨S20000x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S20000x128, .f32⟩
  | 40 => ⟨S20000x128, .f32⟩
  | 41 => ⟨S_, .f32⟩
  | 42 => ⟨S20000x128, .f32⟩
  | 43 => ⟨S20000x128, .i1⟩
  | 44 => ⟨S_, .f32⟩
  | 45 => ⟨S20000x128, .f32⟩
  | 46 => ⟨S20000x128, .f32⟩
  | 47 => ⟨S20000x128, .f32⟩
  | 48 => ⟨S200000x32, .f32⟩
  | 49 => ⟨S1x32, .f32⟩
  | 50 => ⟨S200000x32, .f32⟩
  | 51 => ⟨S200000x32, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_v24 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_6 : Ref sig .tc := ⟨.hbm, 59, rfl⟩
abbrev main_v29 : Ref sig .tc := ⟨.hbm, 60, rfl⟩
abbrev main_v30 : Ref sig .tc := ⟨.hbm, 61, rfl⟩
abbrev main_c_7 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_v39 : Ref sig .tc := ⟨.hbm, 73, rfl⟩
abbrev main_cst_10 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_12 : Ref sig .tc := ⟨.hbm, 91, rfl⟩
abbrev main_v53 : Ref sig .tc := ⟨.hbm, 92, rfl⟩
abbrev main_v54 : Ref sig .tc := ⟨.hbm, 93, rfl⟩
abbrev main_cst_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_14 : Ref sig .tc := ⟨.hbm, 98, rfl⟩
abbrev main_v58 : Ref sig .tc := ⟨.hbm, 99, rfl⟩
abbrev main_v59 : Ref sig .tc := ⟨.hbm, 100, rfl⟩
abbrev main_c_15 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_16 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_17 : Ref sig .tc := ⟨.hbm, 111, rfl⟩
abbrev main_v68 : Ref sig .tc := ⟨.hbm, 112, rfl⟩
abbrev main_cst_18 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_19 : Ref sig .tc := ⟨.hbm, 117, rfl⟩
abbrev main_call4_v0 : Ref sig .tc := ⟨.hbm, 118, rfl⟩
abbrev main_call4_v1 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_20 : Ref sig .tc := ⟨.hbm, 130, rfl⟩
abbrev main_v82 : Ref sig .tc := ⟨.hbm, 131, rfl⟩
abbrev main_v83 : Ref sig .tc := ⟨.hbm, 132, rfl⟩
abbrev main_cst_21 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_22 : Ref sig .tc := ⟨.hbm, 137, rfl⟩
abbrev main_v87 : Ref sig .tc := ⟨.hbm, 138, rfl⟩
abbrev main_v88 : Ref sig .tc := ⟨.hbm, 139, rfl⟩
abbrev main_c_23 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_24 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_25 : Ref sig .tc := ⟨.hbm, 150, rfl⟩
abbrev main_v97 : Ref sig .tc := ⟨.hbm, 151, rfl⟩
abbrev main_cst_26 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_cst_27 : Ref sig .tc := ⟨.hbm, 156, rfl⟩
abbrev main_call6_v0 : Ref sig .tc := ⟨.hbm, 157, rfl⟩
abbrev main_call6_v1 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_28 : Ref sig .tc := ⟨.hbm, 169, rfl⟩
abbrev main_v111 : Ref sig .tc := ⟨.hbm, 170, rfl⟩
abbrev main_v112 : Ref sig .tc := ⟨.hbm, 171, rfl⟩
abbrev main_cst_29 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S200000x1_S200000x128_0_1 : S200000x1.BroadcastsInDim S200000x128 (![0, 1] : Fin 2 → Fin S200000x128.rank)
  bcast_S20000x1_S20000x128_0_1 : S20000x1.BroadcastsInDim S20000x128 (![0, 1] : Fin 2 → Fin S20000x128.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  gather_S20000x64_S600000x1_S600000x64_1_0_n_n_0_1_164_wf : GatherDims.WF S20000x64 S600000x1 S600000x64 [1] [0] [] [0] [] 1 ![1, 64]
  scatter_S200000x64_S600000x1_S600000x64_1_0_0_1_wf : ScatterDims.WF S200000x64 S600000x1 S600000x64 [1] [0] [0] 1
  scatter_S200000_S600000x1_S600000_n_0_0_1_wf : ScatterDims.WF S200000 S600000x1 S600000 [] [0] [0] 1
  dot_S200000x64_S64x128_S200000x128_1_0_0_1_n_n_wf : DotDims.WF S200000x64 S64x128 S200000x128 [1] [0] [0] [1] [] []
  gather_S200000x64_S600000x1_S600000x64_1_0_n_n_0_1_164_wf : GatherDims.WF S200000x64 S600000x1 S600000x64 [1] [0] [] [0] [] 1 ![1, 64]
  scatter_S20000x64_S600000x1_S600000x64_1_0_0_1_wf : ScatterDims.WF S20000x64 S600000x1 S600000x64 [1] [0] [0] 1
  scatter_S20000_S600000x1_S600000_n_0_0_1_wf : ScatterDims.WF S20000 S600000x1 S600000 [] [0] [0] 1
  dot_S20000x64_S64x128_S20000x128_1_0_0_1_n_n_wf : DotDims.WF S20000x64 S64x128 S20000x128 [1] [0] [0] [1] [] []
  gather_S20000x128_S600000x1_S600000x128_1_0_n_n_0_1_1128_wf : GatherDims.WF S20000x128 S600000x1 S600000x128 [1] [0] [] [0] [] 1 ![1, 128]
  scatter_S200000x128_S600000x1_S600000x128_1_0_0_1_wf : ScatterDims.WF S200000x128 S600000x1 S600000x128 [1] [0] [0] 1
  dot_S200000x128_S128x128_S200000x128_1_0_0_1_n_n_wf : DotDims.WF S200000x128 S128x128 S200000x128 [1] [0] [0] [1] [] []
  gather_S200000x128_S600000x1_S600000x128_1_0_n_n_0_1_1128_wf : GatherDims.WF S200000x128 S600000x1 S600000x128 [1] [0] [] [0] [] 1 ![1, 128]
  scatter_S20000x128_S600000x1_S600000x128_1_0_0_1_wf : ScatterDims.WF S20000x128 S600000x1 S600000x128 [1] [0] [0] 1
  dot_S20000x128_S128x128_S20000x128_1_0_0_1_n_n_wf : DotDims.WF S20000x128 S128x128 S20000x128 [1] [0] [0] [1] [] []
  dot_S200000x128_S128x32_S200000x32_1_0_0_1_n_n_wf : DotDims.WF S200000x128 S128x32 S200000x32 [1] [0] [0] [1] [] []

variable [Facts₀]

def gather_S20000x64_S600000x1_S600000x64_1_0_n_n_0_1_164 : GatherDims S20000x64 S600000x1 S600000x64 where
  offsetDims := [1]
  collapsedSliceDims := [0]
  operandBatchingDims := []
  startIndicesBatchingDims := []
  startIndexMap := [0]
  indexVectorDim := 1
  sliceSizes := ![1, 64]
  wf := gather_S20000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S20000x64_S600000x1_S600000x64_1_0_0_1 : ScatterDims S20000x64 S600000x1 S600000x64 where
  updateWindowDims := [1]
  insertedWindowDims := [0]
  scatterDimsToOperandDims := [0]
  indexVectorDim := 1
  wf := scatter_S20000x64_S600000x1_S600000x64_1_0_0_1_wf
def scatter_S20000_S600000x1_S600000_n_0_0_1 : ScatterDims S20000 S600000x1 S600000 where
  updateWindowDims := []
  insertedWindowDims := [0]
  scatterDimsToOperandDims := [0]
  indexVectorDim := 1
  wf := scatter_S20000_S600000x1_S600000_n_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S200000x128_S128x32_S200000x32_1_0_0_1_n_n : DotDims S200000x128 S128x32 S200000x32 where
  lhsContracting := [1]
  rhsContracting := [0]
  lhsNonContracting := [0]
  rhsNonContracting := [1]
  lhsBatch := []
  rhsBatch := []
  wf := dot_S200000x128_S128x32_S200000x32_1_0_0_1_n_n_wf

class Facts : Prop extends Facts₀ where

variable [Facts]
-- ==== Proof.KRun.lean ====
/-
  The idealized program's run with its final memory named.

  The program is three tiled regions among stretches of host operations. Its generated frame already walks the run
  segment by segment and ends with every unscoped buffer of a core holding the last boundary's contents (the fold
  through the host stretches and the three regions' write-backs); here that launch is stated keeping the whole final
  valuation instead of only the arguments, and the result buffer is read off it.
-/
import proofs.«125828_j89163521065346_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run, the result buffer and the arguments read off the final valuation. -/
theorem run_result : θ_run defs (onTc (τ := τ) (main (F := F))) ⟨m, fun _ => 0, ρ⟩ (fun r => ∀ c : Dev nD,
      r.2.mem ((c.tc : Thread nD τ).loc main_v60) = W12 m ρ c (Proc.devRef .tc main_v60)
      ∧ ∀ b ∈ Pipeline.ucRefs τ sig, r.2.mem (((c : Thread nD τ)).1, b) = W12 m ρ c b) :=
  (θ_run defs _ _).mono (fun r h c => ⟨h c _ (mem_uc main_v60 (by decide)), h c⟩) (run_all m ρ)

/-- The run in the shape a value claim takes: the result buffer at the last boundary's contents, every argument array
    as launched (no host operation and no region writes one). -/
theorem run_value : θ_run defs (onTc (τ := τ) (main (F := F))) ⟨m, fun _ => 0, ρ⟩ (fun r => ∀ c : Dev nD,
      r.2.mem ((c.tc : Thread nD τ).loc main_v60) = W12 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1,
      ((h c).2 _ (mem_uc main_arg0 (by decide))).trans (W12_main_arg0 m ρ c),
      ((h c).2 _ (mem_uc main_arg1 (by decide))).trans (W12_main_arg1 m ρ c),
      ((h c).2 _ (mem_uc main_arg2 (by decide))).trans (W12_main_arg2 m ρ c),
      ((h c).2 _ (mem_uc main_arg3 (by decide))).trans (W12_main_arg3 m ρ c),
      ((h c).2 _ (mem_uc main_arg4 (by decide))).trans (W12_main_arg4 m ρ c),
      ((h c).2 _ (mem_uc main_arg5 (by decide))).trans (W12_main_arg5 m ρ c),
      ((h c).2 _ (mem_uc main_arg6 (by decide))).trans (W12_main_arg6 m ρ c),
      ((h c).2 _ (mem_uc main_arg7 (by decide))).trans (W12_main_arg7 m ρ c),
      ((h c).2 _ (mem_uc main_arg8 (by decide))).trans (W12_main_arg8 m ρ c),
      ((h c).2 _ (mem_uc main_arg9 (by decide))).trans (W12_main_arg9 m ρ c),
      ((h c).2 _ (mem_uc main_arg10 (by decide))).trans (W12_main_arg10 m ρ c),
      ((h c).2 _ (mem_uc main_arg11 (by decide))).trans (W12_main_arg11 m ρ c),
      ((h c).2 _ (mem_uc main_arg12 (by decide))).trans (W12_main_arg12 m ρ c),
      ((h c).2 _ (mem_uc main_arg13 (by decide))).trans (W12_main_arg13 m ρ c),
      ((h c).2 _ (mem_uc main_arg14 (by decide))).trans (W12_main_arg14 m ρ c),
      ((h c).2 _ (mem_uc main_arg15 (by decide))).trans (W12_main_arg15 m ρ c),
      ((h c).2 _ (mem_uc main_arg16 (by decide))).trans (W12_main_arg16 m ρ c),
      ((h c).2 _ (mem_uc main_arg17 (by decide))).trans (W12_main_arg17 m ρ c),
      ((h c).2 _ (mem_uc main_arg18 (by decide))).trans (W12_main_arg18 m ρ c),
      ((h c).2 _ (mem_uc main_arg19 (by decide))).trans (W12_main_arg19 m ρ c)⟩) (run_result m ρ)

end Cert.KernelIdeal.Final

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.Sage.lean ====
/-
  The mathematics of one dense message-passing layer, entry by entry, on the extended reals.

  One layer takes an aggregated feature matrix agg and the destination features x (both n rows of K entries), two weight
  matrices Wl, Wr (K rows of H entries) and a bias b of H entries, and returns the n by H matrix whose entry (p, q) is

      lr ( (Σ_k agg[p,k]·Wl[k,q]  +  Σ_k x[p,k]·Wr[k,q])  +  b[q] ),

  lr the leaky rectifier with slope 0.01 (the slope as its single-precision pattern). The output head adds one more
  product and bias: entry (p, o) of project g Wo bo is Σ_k g[p,k]·Wo[k,o] + bo[o].

  A program that adds the bias BEFORE the second product computes (Σ agg·Wl + b) + Σ x·Wr: the same number, because
  addition of extended reals is commutative and associative (no finiteness is used). Both spellings of the host program
  (two dot products, a bias broadcast along the rows, a comparison, a product and a select over rank-0 constants) are read
  here at an entry as these formulas.
-/
import Idealize.ShloMosaic.PureOps.Ideal.Laws
import Idealize.ShloMosaic.Lib.Pipeline.Value
import Idealize.ShloMosaic.Lib.ValueIdx
import Idealize.ShloMosaic.Lib.ValueLayout
import proofs.«125828_j89163521065346_1_alg».proof.Proof.LibPlainContract
import proofs.«125828_j89163521065346_1_alg».proof.Proof.LibLreluRows

noncomputable section

namespace Cert.Sage

open Idealize.ShloMosaic Idealize.ShloMosaic.ValueIdx

/-- The leaky rectifier with slope 0.01 on one value: v where v > 0, and 0.01·v elsewhere. -/
def lr (v : EReal) : EReal :=
  Scalar.select (FloatOps.cmpf (F := Ideal) (φ := .f32) .ogt v (Ideal.ofBits .f32 0x00000000#32)) v
    (Ideal.ofBits .f32 0x3C23D70A#32 * v)

/-- The rectifier of a vector spelt with splat scalars, at one index. -/
theorem lr_splat_apply {s : Shape} (v : FVec Ideal s .f32) (i : s.Idx) :
    select (cmpf .ogt v (broadcast s (Scalar.ofBits (F := Ideal) .f32 0x00000000#32))) v
      (mulf (broadcast s (Scalar.ofBits (F := Ideal) .f32 0x3C23D70A#32)) v) i = lr (v i) := rfl

/-- The rectifier of a vector spelt with rank-0 constants broadcast to the shape, at one index. -/
theorem lr_bcast_apply {s : Shape} (h : (⟨0, ![]⟩ : Shape).BroadcastsInDim s ![]) (v : FVec Ideal s .f32) (i : s.Idx) :
    select (cmpf .ogt v (broadcastInDim s ![] h (constant (F := Ideal) ⟨0, ![]⟩ .f32 0x00000000#32))) v
      (mulf (broadcastInDim s ![] h (constant (F := Ideal) ⟨0, ![]⟩ .f32 0x3C23D70A#32)) v) i = lr (v i) := rfl

/-- Entry (p, q) of one layer, the bias added last. -/
def denseAt {n K H : Nat} (agg x : (⟨2, ![n, K]⟩ : Shape).Idx → EReal) (Wl Wr : (⟨2, ![K, H]⟩ : Shape).Idx → EReal)
    (b : Fin H → EReal) (p : Fin n) (q : Fin H) : EReal :=
  lr (((∑ k : Fin K, agg (ix2 p k) * Wl (ix2 k q)) + ∑ k : Fin K, x (ix2 p k) * Wr (ix2 k q)) + b q)

/-- One layer as a matrix. -/
def dense {n K H : Nat} (agg x : (⟨2, ![n, K]⟩ : Shape).Idx → EReal) (Wl Wr : (⟨2, ![K, H]⟩ : Shape).Idx → EReal)
    (b : Fin H → EReal) : (⟨2, ![n, H]⟩ : Shape).Idx → EReal :=
  fun i => denseAt agg x Wl Wr b (i 0) (i 1)

theorem dense_apply {n K H : Nat} (agg x : (⟨2, ![n, K]⟩ : Shape).Idx → EReal) (Wl Wr : (⟨2, ![K, H]⟩ : Shape).Idx → EReal)
    (b : Fin H → EReal) (p : Fin n) (q : Fin H) : dense agg x Wl Wr b (ix2 p q) = denseAt agg x Wl Wr b p q := rfl

/-- Adding the bias before the second product gives the same entry: (s + b) + t = (s + t) + b. -/
theorem lr_bias_first (s t b : EReal) : lr ((s + b) + t) = lr ((s + t) + b) := by rw [add_right_comm]

/-- Entry (p, o) of the output head. -/
def projectAt {n H O : Nat} (g : (⟨2, ![n, H]⟩ : Shape).Idx → EReal) (Wo : (⟨2, ![H, O]⟩ : Shape).Idx → EReal)
    (bo : Fin O → EReal) (p : Fin n) (o : Fin O) : EReal :=
  (∑ k : Fin H, g (ix2 p k) * Wo (ix2 k o)) + bo o

/-- The output head as a matrix. -/
def project {n H O : Nat} (g : (⟨2, ![n, H]⟩ : Shape).Idx → EReal) (Wo : (⟨2, ![H, O]⟩ : Shape).Idx → EReal)
    (bo : Fin O → EReal) : (⟨2, ![n, O]⟩ : Shape).Idx → EReal :=
  fun i => projectAt g Wo bo (i 0) (i 1)

theorem project_apply {n H O : Nat} (g : (⟨2, ![n, H]⟩ : Shape).Idx → EReal) (Wo : (⟨2, ![H, O]⟩ : Shape).Idx → EReal)
    (bo : Fin O → EReal) (p : Fin n) (o : Fin O) : project g Wo bo (ix2 p o) = projectAt g Wo bo p o := rfl

/-! ## The host program's spelling of a layer and of the head, as these matrices -/

/-- A host layer — agg·Wl, plus the bias laid along the rows, plus x·Wr, then the rectifier over rank-0 constants —
    is `dense` of its operands: entry by entry the two dot products are the two sums, the bias row is b[q], and the
    bias-first sum is the bias-last one. -/
theorem hostDense_eq {n K H : Nat} (d : DotDims ⟨2, ![n, K]⟩ ⟨2, ![K, H]⟩ ⟨2, ![n, H]⟩) (hd : d = DotDims.plain n K H)
    (h0 : (⟨0, ![]⟩ : Shape).BroadcastsInDim ⟨2, ![n, H]⟩ ![])
    (h1 : (⟨1, ![H]⟩ : Shape).BroadcastsInDim ⟨2, ![1, H]⟩ ![1])
    (h2 : (⟨2, ![1, H]⟩ : Shape).BroadcastsInDim ⟨2, ![n, H]⟩ ![0, 1])
    (agg x : FVec Ideal ⟨2, ![n, K]⟩ .f32) (Wl Wr : FVec Ideal ⟨2, ![K, H]⟩ .f32) (bv : FVec Ideal ⟨1, ![H]⟩ .f32) :
    select (cmpf .ogt (addf (addf (Host.dotGeneral d none agg Wl)
          (broadcastInDim ⟨2, ![n, H]⟩ ![0, 1] h2 (broadcastInDim ⟨2, ![1, H]⟩ ![1] h1 bv))) (Host.dotGeneral d none x Wr))
        (broadcastInDim ⟨2, ![n, H]⟩ ![] h0 (constant (F := Ideal) ⟨0, ![]⟩ .f32 0x00000000#32)))
      (addf (addf (Host.dotGeneral d none agg Wl)
          (broadcastInDim ⟨2, ![n, H]⟩ ![0, 1] h2 (broadcastInDim ⟨2, ![1, H]⟩ ![1] h1 bv))) (Host.dotGeneral d none x Wr))
      (mulf (broadcastInDim ⟨2, ![n, H]⟩ ![] h0 (constant (F := Ideal) ⟨0, ![]⟩ .f32 0x3C23D70A#32))
        (addf (addf (Host.dotGeneral d none agg Wl)
          (broadcastInDim ⟨2, ![n, H]⟩ ![0, 1] h2 (broadcastInDim ⟨2, ![1, H]⟩ ![1] h1 bv))) (Host.dotGeneral d none x Wr)))
      = dense agg x Wl Wr (fun q => bv (ix1 q)) := by
  subst hd
  funext i
  obtain ⟨p, q, rfl⟩ : ∃ (p : Fin n) (q : Fin H), i = ix2 p q := ⟨i 0, i 1, eq_ix2 i⟩
  rw [lr_bcast_apply, dense_apply]
  unfold denseAt
  rw [← lr_bias_first]
  congr 1
  show (Host.dotGeneral (DotDims.plain n K H) none agg Wl (ix2 p q)
      + broadcastInDim ⟨2, ![n, H]⟩ ![0, 1] h2 (broadcastInDim ⟨2, ![1, H]⟩ ![1] h1 bv) (ix2 p q))
      + Host.dotGeneral (DotDims.plain n K H) none x Wr (ix2 p q) = _
  simp only [Host.dotGeneral]
  rw [Cert.LibPlainContract.dotGeneral_plain_apply, Cert.LibPlainContract.dotGeneral_plain_apply,
    Cert.LibLreluRows.biasRows_apply]

/-- A host output head — g·Wo plus the bias laid along the rows — is `project` of its operands. -/
theorem hostProject_eq {n H O : Nat} (d : DotDims ⟨2, ![n, H]⟩ ⟨2, ![H, O]⟩ ⟨2, ![n, O]⟩) (hd : d = DotDims.plain n H O)
    (h1 : (⟨1, ![O]⟩ : Shape).BroadcastsInDim ⟨2, ![1, O]⟩ ![1])
    (h2 : (⟨2, ![1, O]⟩ : Shape).BroadcastsInDim ⟨2, ![n, O]⟩ ![0, 1])
    (g : FVec Ideal ⟨2, ![n, H]⟩ .f32) (Wo : FVec Ideal ⟨2, ![H, O]⟩ .f32) (bv : FVec Ideal ⟨1, ![O]⟩ .f32) :
    addf (Host.dotGeneral d none g Wo) (broadcastInDim ⟨2, ![n, O]⟩ ![0, 1] h2 (broadcastInDim ⟨2, ![1, O]⟩ ![1] h1 bv))
      = project g Wo (fun o => bv (ix1 o)) := by
  subst hd
  funext i
  obtain ⟨p, o, rfl⟩ : ∃ (p : Fin n) (o : Fin O), i = ix2 p o := ⟨i 0, i 1, eq_ix2 i⟩
  rw [project_apply]
  unfold projectAt
  show Host.dotGeneral (DotDims.plain n H O) none g Wo (ix2 p o)
      + broadcastInDim ⟨2, ![n, O]⟩ ![0, 1] h2 (broadcastInDim ⟨2, ![1, O]⟩ ![1] h1 bv) (ix2 p o) = _
  simp only [Host.dotGeneral]
  rw [Cert.LibPlainContract.dotGeneral_plain_apply, Cert.LibLreluRows.biasRows_apply]

end Cert.Sage

end
-- ==== Proof.Tile.lean ====
/-
  What one grid step stores, entry by entry.

  A step of either layer kernel loads a tile of 5000 rows of the aggregated features and of the destination features,
  the two weight matrices and the bias as a one-row matrix, and stores the 5000 by 128 tile whose entry (p, q) is the
  layer's formula on those tiles: the two matrix-unit products into a zero accumulator are the two sums over the
  contraction index, the changes of float format are the identity on extended reals, the one-row bias broadcast down
  the rows is the row's entry q, and the comparison, product and select over splat scalars are the rectifier. The
  last kernel's step feeds that tile, again through a format change, to one more product and bias row: the head.
-/
import proofs.«125828_j89163521065346_1_alg».proof.Proof.Gen.KernelIdeal.Skeleton
import proofs.«125828_j89163521065346_1_alg».proof.Proof.Sage

noncomputable section

namespace Cert.Sage.Tile

open Cert.KernelIdeal Cert.KernelIdeal.Gen Idealize.ShloMosaic Idealize.ShloMosaic.ValueIdx Cert.Sage

/-- The layer's pre-activation sum at entry (p, q) of a tile, from the tile's two products and bias row. -/
theorem preact_apply {K : Nat} (d : DotDims ⟨2, ![5000, K]⟩ ⟨2, ![K, 128]⟩ ⟨2, ![5000, 128]⟩) (hd : d = DotDims.plain 5000 K 128)
    (hs : (⟨2, ![1, 128]⟩ : Shape).ShapeCasts ⟨2, ![1, 128]⟩) (hb : (⟨2, ![1, 128]⟩ : Shape).Broadcasts ⟨2, ![5000, 128]⟩)
    (a x : FVec Ideal ⟨2, ![5000, K]⟩ .f32) (wl wr : FVec Ideal ⟨2, ![K, 128]⟩ .f32) (b : FVec Ideal ⟨2, ![1, 128]⟩ .f32)
    (h1 : FTy.bits .bf16 < FTy.bits .f32) (p : Fin 5000) (q : Fin 128) :
    addf (addf (matmul d none (truncf .bf16 a h1) (truncf .bf16 wl h1) (constant ⟨2, ![5000, 128]⟩ .f32 0x00000000#32))
        (matmul d none (truncf .bf16 x h1) (truncf .bf16 wr h1) (constant ⟨2, ![5000, 128]⟩ .f32 0x00000000#32)))
      (broadcastTo ⟨2, ![5000, 128]⟩ (shapeCast ⟨2, ![1, 128]⟩ b hs) hb) (ix2 p q)
    = ((∑ k : Fin K, a (ix2 p k) * wl (ix2 k q)) + ∑ k : Fin K, x (ix2 p k) * wr (ix2 k q)) + b (ix2 (0 : Fin 1) q) := by
  subst hd
  rw [addf_apply, addf_apply]
  exact congrArg₂ (· + ·) (congrArg₂ (· + ·)
      ((Cert.LibPlainContract.matmul_plain_apply 5000 K 128 none (truncf .bf16 a h1) (truncf .bf16 wl h1) p q).trans rfl)
      ((Cert.LibPlainContract.matmul_plain_apply 5000 K 128 none (truncf .bf16 x h1) (truncf .bf16 wr h1) p q).trans rfl))
    (Cert.LibLreluRows.rowDown_apply hs hb b p q)

/-- The tile a step of the first layer kernel stores, at entry (p, q). -/
theorem pay0_apply (x0 x1 : Vec Ideal S5000x64 .f32) (x2 x3 : Vec Ideal S64x128 .f32) (x4 : Vec Ideal S1x128 .f32)
    (p : Fin 5000) (q : Fin 128) :
    k0_pay1 (F := Ideal) x0 x1 x2 x3 x4 (ix2 p q) = denseAt x0 x1 x2 x3 (fun q => x4 (ix2 (0 : Fin 1) q)) p q := by
  unfold k0_pay1
  refine (lr_splat_apply _ _).trans ?_
  unfold denseAt
  refine congrArg lr ?_
  rw [shapeCast_self]
  exact preact_apply _ rfl _ _ x0 x1 x2 x3 x4 _ p q

/-- The tile a step of the second layer kernel (the same body) stores, at entry (p, q). -/
theorem pay1_apply (x0 x1 : Vec Ideal S5000x64 .f32) (x2 x3 : Vec Ideal S64x128 .f32) (x4 : Vec Ideal S1x128 .f32)
    (p : Fin 5000) (q : Fin 128) :
    k1_pay1 (F := Ideal) x0 x1 x2 x3 x4 (ix2 p q) = denseAt x0 x1 x2 x3 (fun q => x4 (ix2 (0 : Fin 1) q)) p q := by
  unfold k1_pay1
  refine (lr_splat_apply _ _).trans ?_
  unfold denseAt
  refine congrArg lr ?_
  rw [shapeCast_self]
  exact preact_apply _ rfl _ _ x0 x1 x2 x3 x4 _ p q

/-- The tile a step of the last kernel stores, at entry (p, o): the head of the layer's tile. -/
theorem pay2_apply (x0 x1 : Vec Ideal S5000x128 .f32) (x2 x3 : Vec Ideal S128x128 .f32) (x4 : Vec Ideal S1x128 .f32)
    (x5 : Vec Ideal S128x32 .f32) (x6 : Vec Ideal S1x32 .f32) (p : Fin 5000) (o : Fin 32) :
    k2_pay1 (F := Ideal) x0 x1 x2 x3 x4 x5 x6 (ix2 p o)
      = projectAt (dense x0 x1 x2 x3 (fun q => x4 (ix2 (0 : Fin 1) q))) x5 (fun o => x6 (ix2 (0 : Fin 1) o)) p o := by
  unfold k2_pay1
  unfold projectAt
  rw [addf_apply]
  refine congrArg₂ (· + ·) ((Cert.LibPlainContract.matmul_plain_apply 5000 128 32 none _ _ p o).trans
    (Finset.sum_congr rfl fun k _ => congrArg₂ (· * ·) ?_ rfl)) (Cert.LibLreluRows.rowDown_apply _ _ x6 p o)
  rw [truncf_apply, dense_apply]
  refine (lr_splat_apply _ _).trans ?_
  unfold denseAt
  refine congrArg lr ?_
  rw [shapeCast_self, shapeCast_self]
  exact preact_apply _ rfl _ _ x0 x1 x2 x3 x4 _ p k

end Cert.Sage.Tile

end
-- ==== Proof.Region0.lean ====
/-
  Region 0 of the program as one matrix.

  The region runs its body once per grid step t < 40; step t reads rows 5000·t … 5000·t + 4999 of the two row-tiled
  operands and the whole of every other operand, and writes back rows 5000·t … of the result. Every stored tile is the
  layer's formula on the loaded tiles (module Tile), a row-tiled operand's tile entry (p, k) is the array's entry (5000·t + p, k),
  so each written block is that block of ONE matrix — the layer of the operand arrays as the region finds them —
  and the 40 blocks cover the result: the result array ends as that matrix.
-/
import proofs.«125828_j89163521065346_1_alg».proof.Proof.Gen.KernelIdeal.Frame
import proofs.«125828_j89163521065346_1_alg».proof.Proof.Tile

set_option maxRecDepth 16384

noncomputable section

namespace Cert.Sage.Region0

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix the region's result array ends holding, of the operand arrays as the region finds them. -/
abbrev G (c : Dev nD) : S200000x128.Idx → EReal :=
  dense (V c main_v17) (V c main_arg1) (V c main_arg6) (V c main_arg7) (fun q => V c main_v36 (ix2 (0 : Fin 1) q))

/-- The printed index maps over the grid: the row-tiled windows sit at block row t, every other window at block 0. -/
theorem idx_facts : ∀ t : Fin cfg0.N, win0_5.index t (0 : Fin 2) = t.val
    ∧ win0_5.index t (1 : Fin 2) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0 :=
  (by decide +kernel : ∀ t : Fin grid0.N, _)

/-- Every block row of the result is some step's. -/
theorem idx_onto : ∀ q0 : Fin 40, ∃ t : Fin cfg0.N, win0_5.index t = ![q0.val, 0] :=
  (by decide +kernel : ∀ q0 : Fin 40, ∃ t : Fin grid0.N, win0_5.index t = ![q0.val, 0])

/-- Row p of step t's tile is row 5000·t + p of the array. -/
def row (t : Fin cfg0.N) (p : Fin 5000) : Fin 200000 :=
  ⟨t.val * 5000 + p.val, by have h1 := t.isLt; have h2 : cfg0.N = 40 := N_0; have h3 := p.isLt; omega⟩

/-- Window 0's tile at step t, entry (p, k), is its array's entry (5000·t + p, k). -/
theorem read0 (c : Dev nD) (t : Fin cfg0.N) (p : Fin 5000) (k : Fin 64) :
    iblk0 V c 0 t (ix2 p k) = V c main_v17 (ix2 (row t p) k) := by
  show V c main_v17 (((cfg0.win 0).blk t).view.emb (ix2 p k)) = _
  refine congrArg (V c main_v17) ?_
  obtain ⟨e0, e1, e2, e3, e4, e5, e6, e7, e8, e9, e10, e11⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- Window 1's tile at step t, entry (p, k), is its array's entry (5000·t + p, k). -/
theorem read1 (c : Dev nD) (t : Fin cfg0.N) (p : Fin 5000) (k : Fin 64) :
    iblk0 V c 1 t (ix2 p k) = V c main_arg1 (ix2 (row t p) k) := by
  show V c main_arg1 (((cfg0.win 1).blk t).view.emb (ix2 p k)) = _
  refine congrArg (V c main_arg1) ?_
  obtain ⟨e0, e1, e2, e3, e4, e5, e6, e7, e8, e9, e10, e11⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- Window 2's tile at step t, entry (p, k), is its array's entry (p, k). -/
theorem read2 (c : Dev nD) (t : Fin cfg0.N) (p : Fin 64) (k : Fin 128) :
    iblk0 V c 2 t (ix2 p k) = V c main_arg6 (ix2 p k) := by
  show V c main_arg6 (((cfg0.win 2).blk t).view.emb (ix2 p k)) = _
  refine congrArg (V c main_arg6) ?_
  obtain ⟨e0, e1, e2, e3, e4, e5, e6, e7, e8, e9, e10, e11⟩ := idx_facts t
  funext a; apply Fin.ext
  match a with
  | ⟨0, _⟩ => show win0_2.index t (0 : Fin 2) * 64 + 1 * p.val = p.val; omega
  | ⟨1, _⟩ => show win0_2.index t (1 : Fin 2) * 128 + 1 * k.val = k.val; omega

/-- Window 3's tile at step t, entry (p, k), is its array's entry (p, k). -/
theorem read3 (c : Dev nD) (t : Fin cfg0.N) (p : Fin 64) (k : Fin 128) :
    iblk0 V c 3 t (ix2 p k) = V c main_arg7 (ix2 p k) := by
  show V c main_arg7 (((cfg0.win 3).blk t).view.emb (ix2 p k)) = _
  refine congrArg (V c main_arg7) ?_
  obtain ⟨e0, e1, e2, e3, e4, e5, e6, e7, e8, e9, e10, e11⟩ := idx_facts t
  funext a; apply Fin.ext
  match a with
  | ⟨0, _⟩ => show win0_3.index t (0 : Fin 2) * 64 + 1 * p.val = p.val; omega
  | ⟨1, _⟩ => show win0_3.index t (1 : Fin 2) * 128 + 1 * k.val = k.val; omega

/-- Window 4's tile at step t, entry (p, k), is its array's entry (p, k). -/
theorem read4 (c : Dev nD) (t : Fin cfg0.N) (p : Fin 1) (k : Fin 128) :
    iblk0 V c 4 t (ix2 p k) = V c main_v36 (ix2 p k) := by
  show V c main_v36 (((cfg0.win 4).blk t).view.emb (ix2 p k)) = _
  refine congrArg (V c main_v36) ?_
  obtain ⟨e0, e1, e2, e3, e4, e5, e6, e7, e8, e9, e10, e11⟩ := idx_facts t
  funext a; apply Fin.ext
  match a with
  | ⟨0, _⟩ => show win0_4.index t (0 : Fin 2) * 1 + 1 * p.val = p.val; omega
  | ⟨1, _⟩ => show win0_4.index t (1 : Fin 2) * 128 + 1 * k.val = k.val; omega

/-- The layer's formula on step t's tiles is the layer's formula on the arrays at row 5000·t + p. -/
theorem tile_dense (c : Dev nD) (t : Fin cfg0.N) (p : Fin 5000) (q : Fin 128) :
    denseAt (iblk0 V c 0 t) (iblk0 V c 1 t) (iblk0 V c 2 t) (iblk0 V c 3 t) (fun q => iblk0 V c 4 t (ix2 (0 : Fin 1) q)) p q
      = denseAt (V c main_v17) (V c main_arg1) (V c main_arg6) (V c main_arg7) (fun q => V c main_v36 (ix2 (0 : Fin 1) q)) (row t p) q := by
  unfold denseAt
  refine congrArg lr (congrArg₂ (· + ·) (congrArg₂ (· + ·) (Finset.sum_congr rfl fun k _ => congrArg₂ (· * ·) ?_ ?_)
    (Finset.sum_congr rfl fun k _ => congrArg₂ (· * ·) ?_ ?_)) ?_)
  · exact read0 V c t p k
  · exact read2 V c t k q
  · exact read1 V c t p k
  · exact read3 V c t k q
  · exact read4 V c t (0 : Fin 1) q

/-- What step t writes back is block t of the matrix. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  have hemb : ((cfg0.win 5).blk t).view.emb (ix2 p q) = ix2 (row t p) q := by
    obtain ⟨e0, e1, e2, e3, e4, e5, e6, e7, e8, e9, e10, e11⟩ := idx_facts t
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (iblk0 V c 0 t) (iblk0 V c 1 t) (iblk0 V c 2 t) (iblk0 V c 3 t) (iblk0 V c 4 t) (ix2 p q) = G V c (((cfg0.win 5).blk t).view.emb (ix2 p q))
  rw [hemb]
  refine (Cert.Sage.Tile.pay0_apply (iblk0 V c 0 t) (iblk0 V c 1 t) (iblk0 V c 2 t) (iblk0 V c 3 t) (iblk0 V c 4 t) p q).trans ?_
  exact tile_dense V c t p q

/-- An index of the result is in step t's block iff each coordinate is in the block's range. -/
theorem mem_blk (t : Fin cfg0.N) (i : S200000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v37).slice (win0_5.rect t)).set ↔ _
  rw [View.set_slice_whole, Rect.mem_set_unit]
  exact Iff.rfl

/-- The blocks cover the result: row r is in step r / 5000's block. -/
theorem cover (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region is the matrix. -/
theorem final (c : Dev nD) : (dat0 V c).arrAt 5 cfg0.N = G V c :=
  (dat0 V c).arrAt_eq_of_cover 5 (G V c) (fun t _ => flushed_eq V c t) (cover)

end Cert.Sage.Region0

end
-- ==== Proof.Net.lean ====
/-
  The network as one function of its arguments.

  A segment mean gathers rows of a feature table at the edges' source indices (negative indices wrapped once), adds them
  into the rows named by the edges' destination indices, and divides each row by its edge count clipped below at one.
  Both programs spell the three segment means with the same host operations; they are named here once (over the
  reference program's dimension records) and never opened. Between them sit the dense layers and the head of module
  Sage:

      h_flow = layer (mean of x_host over host→flow edges) x_flow
      h_host = layer (mean of x_flow over flow→host edges) x_host
      out    = head (layer (mean of h_host over host→flow edges) h_flow)
-/
import proofs.«125828_j89163521065346_1_alg».proof.ReferenceIdeal
import proofs.«125828_j89163521065346_1_alg».proof.Proof.Gen.ReferenceIdeal
import proofs.«125828_j89163521065346_1_alg».proof.Proof.Sage

noncomputable section

namespace Cert.Sage.Net

open Cert.ReferenceIdeal Cert.ReferenceIdeal.Gen Idealize.ShloMosaic Idealize.ShloMosaic.ValueIdx Cert.Sage

/-- The mean over flow→host edges of 64-entry rows of a 200000-row table, into 20000 rows. -/
def meanFH (x : FVec Ideal S200000x64 .f32) (src dst : IVec S600000 32) : FVec Ideal S20000x64 .f32 :=
  (Host.divf (Host.scatterAdd scatter_S20000x64_S600000x1_S600000x64_1_0_0_1 (broadcastInDim S20000x64 ![] bcast_S_S20000x64 (constant S_ .f32 0x00000000#32)) (broadcastInDim S600000x1 ![0] bcast_S600000_S600000x1_0 dst) (Host.gather gather_S200000x64_S600000x1_S600000x64_1_0_n_n_0_1_164 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 200000#32))) src)))) (broadcastInDim S20000x64 ![0, 1] bcast_S20000x1_S20000x64_0_1 (broadcastInDim S20000x1 ![0] bcast_S20000_S20000x1_0 (maximumf (broadcastInDim S20000 ![] bcast_S_S20000 (id (constant S_ .f32 0x3F800000#32))) (Host.scatterAdd scatter_S20000_S600000x1_S600000_n_0_0_1 (broadcastInDim S20000 ![] bcast_S_S20000 (constant S_ .f32 0x00000000#32)) (broadcastInDim S600000x1 ![0] bcast_S600000_S600000x1_0 dst) (broadcastInDim S600000 ![] bcast_S_S600000 (constant S_ .f32 0x3F800000#32)))))))

/-- The mean over host→flow edges of 64-entry rows of a 20000-row table, into 200000 rows. -/
def meanHF (x : FVec Ideal S20000x64 .f32) (src dst : IVec S600000 32) : FVec Ideal S200000x64 .f32 :=
  (Host.divf (Host.scatterAdd scatter_S200000x64_S600000x1_S600000x64_1_0_0_1 (broadcastInDim S200000x64 ![] bcast_S_S200000x64 (constant S_ .f32 0x00000000#32)) (broadcastInDim S600000x1 ![0] bcast_S600000_S600000x1_0 dst) (Host.gather gather_S20000x64_S600000x1_S600000x64_1_0_n_n_0_1_164 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 20000#32))) src)))) (broadcastInDim S200000x64 ![0, 1] bcast_S200000x1_S200000x64_0_1 (broadcastInDim S200000x1 ![0] bcast_S200000_S200000x1_0 (maximumf (broadcastInDim S200000 ![] bcast_S_S200000 (id (constant S_ .f32 0x3F800000#32))) (Host.scatterAdd scatter_S200000_S600000x1_S600000_n_0_0_1 (broadcastInDim S200000 ![] bcast_S_S200000 (constant S_ .f32 0x00000000#32)) (broadcastInDim S600000x1 ![0] bcast_S600000_S600000x1_0 dst) (broadcastInDim S600000 ![] bcast_S_S600000 (constant S_ .f32 0x3F800000#32)))))))

/-- The mean over host→flow edges of 128-entry rows of a 20000-row table, into 200000 rows. -/
def meanHF' (x : FVec Ideal S20000x128 .f32) (src dst : IVec S600000 32) : FVec Ideal S200000x128 .f32 :=
  (Host.divf (Host.scatterAdd scatter_S200000x128_S600000x1_S600000x128_1_0_0_1 (broadcastInDim S200000x128 ![] bcast_S_S200000x128 (constant S_ .f32 0x00000000#32)) (broadcastInDim S600000x1 ![0] bcast_S600000_S600000x1_0 dst) (Host.gather gather_S20000x128_S600000x1_S600000x128_1_0_n_n_0_1_1128 x (broadcastInDim S600000x1 ![0] bcast_S600000_S600000x1_0 (select (cmpi .slt src (broadcastInDim S600000 ![] bcast_S_S600000 (constantI S_ 32 0#32))) (addi src (broadcastInDim S600000 ![] bcast_S_S600000 (constantI S_ 32 20000#32))) src)))) (broadcastInDim S200000x128 ![0, 1] bcast_S200000x1_S200000x128_0_1 (broadcastInDim S200000x1 ![0] bcast_S200000_S200000x1_0 (maximumf (broadcastInDim S200000 ![] bcast_S_S200000 (id (constant S_ .f32 0x3F800000#32))) (Host.scatterAdd scatter_S200000_S600000x1_S600000_n_0_0_1 (broadcastInDim S200000 ![] bcast_S_S200000 (constant S_ .f32 0x00000000#32)) (broadcastInDim S600000x1 ![0] bcast_S600000_S600000x1_0 dst) (broadcastInDim S600000 ![] bcast_S_S600000 (constant S_ .f32 0x3F800000#32)))))))

/-- The whole network: the 200000 by 32 result as a function of the arguments it depends on. -/
def net (x_host : FVec Ideal S20000x64 .f32) (x_flow : FVec Ideal S200000x64 .f32) (src_hf dst_hf src_fh dst_fh : IVec S600000 32)
    (W0hfl W0hfr : FVec Ideal S64x128 .f32) (b0hf : FVec Ideal S128 .f32)
    (W0fhl W0fhr : FVec Ideal S64x128 .f32) (b0fh : FVec Ideal S128 .f32)
    (W1hfl W1hfr : FVec Ideal S128x128 .f32) (b1hf : FVec Ideal S128 .f32)
    (Wout : FVec Ideal S128x32 .f32) (bout : FVec Ideal S32 .f32) : FVec Ideal S200000x32 .f32 :=
  project
    (dense
      (meanHF' (dense (meanFH x_flow src_fh dst_fh) x_host W0fhl W0fhr (fun q => b0fh (ix1 q))) src_hf dst_hf)
      (dense (meanHF x_host src_hf dst_hf) x_flow W0hfl W0hfr (fun q => b0hf (ix1 q)))
      W1hfl W1hfr (fun q => b1hf (ix1 q)))
    Wout (fun o => bout (ix1 o))

end Cert.Sage.Net

end
-- ==== Proof.Chain0.lean ====
/-
  The idealized program's run, read up to region 0's exit.

  The generated frame gives the contents of every buffer at each boundary of the run as a fold: a host stretch applies
  its operations, a region replaces its result array by what its write-backs leave and keeps every other buffer. At
  region 0's entry the aggregated operand holds the mean of x_host over host→flow edges (the host operations before the
  region, read off the fold and recognised as module Net's function), the other operands are arguments as launched,
  and the bias enters as a one-row matrix whose entry (0, q) is the bias's entry q. So region 0 leaves h_flow.
-/
import proofs.«125828_j89163521065346_1_alg».proof.Proof.Region0
import proofs.«125828_j89163521065346_1_alg».proof.Proof.Net

set_option maxRecDepth 16384

noncomputable section

namespace Cert.Sage.Chain

open Cert.KernelIdeal Cert.KernelIdeal.Gen Idealize.ShloMosaic Idealize.ShloMosaic.TcCoe Idealize.ShloMosaic.ValueIdx Idealize.SL.Sem
open Idealize.ShloMosaic.StableHlo Cert.Sage Cert.Sage.Net

variable (m : (ℓ : Loc nD τ sig) → Buf (Elt Ideal) ℓ) (ρ : Dev nD → PrngReg) (c : Dev nD)

/-! ## Region 0's entry -/

set_option maxHeartbeats 4000000 in
theorem at5_v17 : V5 m ρ c main_v17 = meanHF (m ((c.tc : Thread nD τ).loc main_arg0)) (m ((c.tc : Thread nD τ).loc main_arg2)) (m ((c.tc : Thread nD τ).loc main_arg3)) := by
  unfold V5 W5 W4 W3 W2 W1
  after_results_simp
  simp only [TRef.toBuf, TRef.ofBuf, cast_eq]
  unfold meanHF
  rfl
theorem at5_arg1 : V5 m ρ c main_arg1 = (m ((c.tc : Thread nD τ).loc main_arg1)) := by
  unfold V5 W5 W4 W3 W2 W1
  after_results_simp <;> rfl
theorem at5_arg6 : V5 m ρ c main_arg6 = (m ((c.tc : Thread nD τ).loc main_arg6)) := by
  unfold V5 W5 W4 W3 W2 W1
  after_results_simp <;> rfl
theorem at5_arg7 : V5 m ρ c main_arg7 = (m ((c.tc : Thread nD τ).loc main_arg7)) := by
  unfold V5 W5 W4 W3 W2 W1
  after_results_simp <;> rfl
theorem at5_v36 (q : Fin 128) : V5 m ρ c main_v36 (ix2 (0 : Fin 1) q) = (m ((c.tc : Thread nD τ).loc main_arg8)) (ix1 q) := by
  have h : V5 m ρ c main_v36 = shapeCast S1x128 (m ((c.tc : Thread nD τ).loc main_arg8)) shapeCasts_S128_S1x128 := by
    unfold V5 W5 W4 W3 W2 W1
    after_results_simp <;> rfl
  rw [h]
  exact Cert.LibLreluRows.rowCast_apply _ _ q

/-- Region 0 leaves h_flow. -/
theorem hflow_eq : W6 m ρ c (Proc.devRef .tc main_v37)
    = dense (meanHF (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg6)) (m ((c.tc : Thread nD τ).loc main_arg7)) (fun q => (m ((c.tc : Thread nD τ).loc main_arg8)) (ix1 q)) := by
  refine (W6_arr m ρ c 5).trans ((Region0.final (V5 m ρ) c).trans ?_)
  show dense (V5 m ρ c main_v17) (V5 m ρ c main_arg1) (V5 m ρ c main_arg6) (V5 m ρ c main_arg7)
      (fun q => V5 m ρ c main_v36 (ix2 (0 : Fin 1) q)) = _
  rw [at5_v17, at5_arg1, at5_arg6, at5_arg7, funext fun q => at5_v36 m ρ c q]

end Cert.Sage.Chain

end
-- ==== Proof.Region1.lean ====
/-
  Region 1 of the program as one matrix.

  The region runs its body once per grid step t < 4; step t reads rows 5000·t … 5000·t + 4999 of the two row-tiled
  operands and the whole of every other operand, and writes back rows 5000·t … of the result. Every stored tile is the
  layer's formula on the loaded tiles (module Tile), a row-tiled operand's tile entry (p, k) is the array's entry (5000·t + p, k),
  so each written block is that block of ONE matrix — the layer of the operand arrays as the region finds them —
  and the 4 blocks cover the result: the result array ends as that matrix.
-/
import proofs.«125828_j89163521065346_1_alg».proof.Proof.Gen.KernelIdeal.Frame
import proofs.«125828_j89163521065346_1_alg».proof.Proof.Tile

set_option maxRecDepth 16384

noncomputable section

namespace Cert.Sage.Region1

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix the region's result array ends holding, of the operand arrays as the region finds them. -/
abbrev G (c : Dev nD) : S20000x128.Idx → EReal :=
  dense (V c main_v35) (V c main_arg0) (V c main_arg9) (V c main_arg10) (fun q => V c main_v38 (ix2 (0 : Fin 1) q))

/-- The printed index maps over the grid: the row-tiled windows sit at block row t, every other window at block 0. -/
theorem idx_facts : ∀ t : Fin cfg1.N, win1_5.index t (0 : Fin 2) = t.val
    ∧ win1_5.index t (1 : Fin 2) = 0
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0 :=
  (by decide +kernel : ∀ t : Fin grid1.N, _)

/-- Every block row of the result is some step's. -/
theorem idx_onto : ∀ q0 : Fin 4, ∃ t : Fin cfg1.N, win1_5.index t = ![q0.val, 0] :=
  (by decide +kernel : ∀ q0 : Fin 4, ∃ t : Fin grid1.N, win1_5.index t = ![q0.val, 0])

/-- Row p of step t's tile is row 5000·t + p of the array. -/
def row (t : Fin cfg1.N) (p : Fin 5000) : Fin 20000 :=
  ⟨t.val * 5000 + p.val, by have h1 := t.isLt; have h2 : cfg1.N = 4 := N_1; have h3 := p.isLt; omega⟩

/-- Window 0's tile at step t, entry (p, k), is its array's entry (5000·t + p, k). -/
theorem read0 (c : Dev nD) (t : Fin cfg1.N) (p : Fin 5000) (k : Fin 64) :
    iblk1 V c 0 t (ix2 p k) = V c main_v35 (ix2 (row t p) k) := by
  show V c main_v35 (((cfg1.win 0).blk t).view.emb (ix2 p k)) = _
  refine congrArg (V c main_v35) ?_
  obtain ⟨e0, e1, e2, e3, e4, e5, e6, e7, e8, e9, e10, e11⟩ := idx_facts t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Window 1's tile at step t, entry (p, k), is its array's entry (5000·t + p, k). -/
theorem read1 (c : Dev nD) (t : Fin cfg1.N) (p : Fin 5000) (k : Fin 64) :
    iblk1 V c 1 t (ix2 p k) = V c main_arg0 (ix2 (row t p) k) := by
  show V c main_arg0 (((cfg1.win 1).blk t).view.emb (ix2 p k)) = _
  refine congrArg (V c main_arg0) ?_
  obtain ⟨e0, e1, e2, e3, e4, e5, e6, e7, e8, e9, e10, e11⟩ := idx_facts t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- Window 2's tile at step t, entry (p, k), is its array's entry (p, k). -/
theorem read2 (c : Dev nD) (t : Fin cfg1.N) (p : Fin 64) (k : Fin 128) :
    iblk1 V c 2 t (ix2 p k) = V c main_arg9 (ix2 p k) := by
  show V c main_arg9 (((cfg1.win 2).blk t).view.emb (ix2 p k)) = _
  refine congrArg (V c main_arg9) ?_
  obtain ⟨e0, e1, e2, e3, e4, e5, e6, e7, e8, e9, e10, e11⟩ := idx_facts t
  funext a; apply Fin.ext
  match a with
  | ⟨0, _⟩ => show win1_2.index t (0 : Fin 2) * 64 + 1 * p.val = p.val; omega
  | ⟨1, _⟩ => show win1_2.index t (1 : Fin 2) * 128 + 1 * k.val = k.val; omega

/-- Window 3's tile at step t, entry (p, k), is its array's entry (p, k). -/
theorem read3 (c : Dev nD) (t : Fin cfg1.N) (p : Fin 64) (k : Fin 128) :
    iblk1 V c 3 t (ix2 p k) = V c main_arg10 (ix2 p k) := by
  show V c main_arg10 (((cfg1.win 3).blk t).view.emb (ix2 p k)) = _
  refine congrArg (V c main_arg10) ?_
  obtain ⟨e0, e1, e2, e3, e4, e5, e6, e7, e8, e9, e10, e11⟩ := idx_facts t
  funext a; apply Fin.ext
  match a with
  | ⟨0, _⟩ => show win1_3.index t (0 : Fin 2) * 64 + 1 * p.val = p.val; omega
  | ⟨1, _⟩ => show win1_3.index t (1 : Fin 2) * 128 + 1 * k.val = k.val; omega

/-- Window 4's tile at step t, entry (p, k), is its array's entry (p, k). -/
theorem read4 (c : Dev nD) (t : Fin cfg1.N) (p : Fin 1) (k : Fin 128) :
    iblk1 V c 4 t (ix2 p k) = V c main_v38 (ix2 p k) := by
  show V c main_v38 (((cfg1.win 4).blk t).view.emb (ix2 p k)) = _
  refine congrArg (V c main_v38) ?_
  obtain ⟨e0, e1, e2, e3, e4, e5, e6, e7, e8, e9, e10, e11⟩ := idx_facts t
  funext a; apply Fin.ext
  match a with
  | ⟨0, _⟩ => show win1_4.index t (0 : Fin 2) * 1 + 1 * p.val = p.val; omega
  | ⟨1, _⟩ => show win1_4.index t (1 : Fin 2) * 128 + 1 * k.val = k.val; omega

/-- The layer's formula on step t's tiles is the layer's formula on the arrays at row 5000·t + p. -/
theorem tile_dense (c : Dev nD) (t : Fin cfg1.N) (p : Fin 5000) (q : Fin 128) :
    denseAt (iblk1 V c 0 t) (iblk1 V c 1 t) (iblk1 V c 2 t) (iblk1 V c 3 t) (fun q => iblk1 V c 4 t (ix2 (0 : Fin 1) q)) p q
      = denseAt (V c main_v35) (V c main_arg0) (V c main_arg9) (V c main_arg10) (fun q => V c main_v38 (ix2 (0 : Fin 1) q)) (row t p) q := by
  unfold denseAt
  refine congrArg lr (congrArg₂ (· + ·) (congrArg₂ (· + ·) (Finset.sum_congr rfl fun k _ => congrArg₂ (· * ·) ?_ ?_)
    (Finset.sum_congr rfl fun k _ => congrArg₂ (· * ·) ?_ ?_)) ?_)
  · exact read0 V c t p k
  · exact read2 V c t k q
  · exact read1 V c t p k
  · exact read3 V c t k q
  · exact read4 V c t (0 : Fin 1) q

/-- What step t writes back is block t of the matrix. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  have hemb : ((cfg1.win 5).blk t).view.emb (ix2 p q) = ix2 (row t p) q := by
    obtain ⟨e0, e1, e2, e3, e4, e5, e6, e7, e8, e9, e10, e11⟩ := idx_facts t
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 3 t) (iblk1 V c 4 t) (ix2 p q) = G V c (((cfg1.win 5).blk t).view.emb (ix2 p q))
  rw [hemb]
  refine (Cert.Sage.Tile.pay1_apply (iblk1 V c 0 t) (iblk1 V c 1 t) (iblk1 V c 2 t) (iblk1 V c 3 t) (iblk1 V c 4 t) p q).trans ?_
  exact tile_dense V c t p q

/-- An index of the result is in step t's block iff each coordinate is in the block's range. -/
theorem mem_blk (t : Fin cfg1.N) (i : S20000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The blocks cover the result: row r is in step r / 5000's block. -/
theorem cover (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region is the matrix. -/
theorem final (c : Dev nD) : (dat1 V c).arrAt 5 cfg1.N = G V c :=
  (dat1 V c).arrAt_eq_of_cover 5 (G V c) (fun t _ => flushed_eq V c t) (cover)

end Cert.Sage.Region1

end
-- ==== Proof.Chain1.lean ====
/-
  The idealized program's run, read from region 0's exit to region 1's exit.

  Region 0 writes only its result array, and no host operation writes an argument: every argument read later walks
  back to the launch memory. At region 1's entry the aggregated operand holds the mean of x_flow over flow→host edges,
  computed before region 0 and untouched by it. So region 1 leaves h_host; and h_flow survives region 1.
-/
import proofs.«125828_j89163521065346_1_alg».proof.Proof.Chain0
import proofs.«125828_j89163521065346_1_alg».proof.Proof.Region1

set_option maxRecDepth 16384

noncomputable section

namespace Cert.Sage.Chain

open Cert.KernelIdeal Cert.KernelIdeal.Gen Idealize.ShloMosaic Idealize.ShloMosaic.TcCoe Idealize.ShloMosaic.ValueIdx Idealize.SL.Sem
open Idealize.ShloMosaic.StableHlo Cert.Sage Cert.Sage.Net

variable (m : (ℓ : Loc nD τ sig) → Buf (Elt Ideal) ℓ) (ρ : Dev nD → PrngReg) (c : Dev nD)

/-! ## Past region 0: the buffers it does not write -/

theorem W6_arg0 : W6 m ρ c (Proc.devRef .tc main_arg0) = (m ((c.tc : Thread nD τ).loc main_arg0)) :=
  (W6_of_ne m ρ c main_arg0 (by decide)).trans (by unfold W5 W4 W3 W2 W1; after_results_simp <;> rfl)
theorem W6_arg9 : W6 m ρ c (Proc.devRef .tc main_arg9) = (m ((c.tc : Thread nD τ).loc main_arg9)) :=
  (W6_of_ne m ρ c main_arg9 (by decide)).trans (by unfold W5 W4 W3 W2 W1; after_results_simp <;> rfl)
theorem W6_arg10 : W6 m ρ c (Proc.devRef .tc main_arg10) = (m ((c.tc : Thread nD τ).loc main_arg10)) :=
  (W6_of_ne m ρ c main_arg10 (by decide)).trans (by unfold W5 W4 W3 W2 W1; after_results_simp <;> rfl)
theorem W6_arg11 : W6 m ρ c (Proc.devRef .tc main_arg11) = (m ((c.tc : Thread nD τ).loc main_arg11)) :=
  (W6_of_ne m ρ c main_arg11 (by decide)).trans (by unfold W5 W4 W3 W2 W1; after_results_simp <;> rfl)
theorem W6_arg2 : W6 m ρ c (Proc.devRef .tc main_arg2) = (m ((c.tc : Thread nD τ).loc main_arg2)) :=
  (W6_of_ne m ρ c main_arg2 (by decide)).trans (by unfold W5 W4 W3 W2 W1; after_results_simp <;> rfl)
theorem W6_arg3 : W6 m ρ c (Proc.devRef .tc main_arg3) = (m ((c.tc : Thread nD τ).loc main_arg3)) :=
  (W6_of_ne m ρ c main_arg3 (by decide)).trans (by unfold W5 W4 W3 W2 W1; after_results_simp <;> rfl)
theorem W6_arg12 : W6 m ρ c (Proc.devRef .tc main_arg12) = (m ((c.tc : Thread nD τ).loc main_arg12)) :=
  (W6_of_ne m ρ c main_arg12 (by decide)).trans (by unfold W5 W4 W3 W2 W1; after_results_simp <;> rfl)
theorem W6_arg13 : W6 m ρ c (Proc.devRef .tc main_arg13) = (m ((c.tc : Thread nD τ).loc main_arg13)) :=
  (W6_of_ne m ρ c main_arg13 (by decide)).trans (by unfold W5 W4 W3 W2 W1; after_results_simp <;> rfl)
theorem W6_arg14 : W6 m ρ c (Proc.devRef .tc main_arg14) = (m ((c.tc : Thread nD τ).loc main_arg14)) :=
  (W6_of_ne m ρ c main_arg14 (by decide)).trans (by unfold W5 W4 W3 W2 W1; after_results_simp <;> rfl)
theorem W6_arg18 : W6 m ρ c (Proc.devRef .tc main_arg18) = (m ((c.tc : Thread nD τ).loc main_arg18)) :=
  (W6_of_ne m ρ c main_arg18 (by decide)).trans (by unfold W5 W4 W3 W2 W1; after_results_simp <;> rfl)
theorem W6_arg19 : W6 m ρ c (Proc.devRef .tc main_arg19) = (m ((c.tc : Thread nD τ).loc main_arg19)) :=
  (W6_of_ne m ρ c main_arg19 (by decide)).trans (by unfold W5 W4 W3 W2 W1; after_results_simp <;> rfl)
set_option maxHeartbeats 4000000 in
theorem W6_v35 : W6 m ρ c (Proc.devRef .tc main_v35) = meanFH (m ((c.tc : Thread nD τ).loc main_arg1)) (m ((c.tc : Thread nD τ).loc main_arg4)) (m ((c.tc : Thread nD τ).loc main_arg5)) := by
  refine (W6_of_ne m ρ c main_v35 (by decide)).trans ?_
  unfold W5 W4 W3 W2 W1
  after_results_simp
  simp only [TRef.toBuf, TRef.ofBuf, cast_eq]
  unfold meanFH
  rfl

/-! ## Region 1's entry -/

theorem at7_v35 : V7 m ρ c main_v35 = meanFH (m ((c.tc : Thread nD τ).loc main_arg1)) (m ((c.tc : Thread nD τ).loc main_arg4)) (m ((c.tc : Thread nD τ).loc main_arg5)) := by
  unfold V7 W7
  after_results_simp
  exact W6_v35 m ρ c
theorem at7_arg0 : V7 m ρ c main_arg0 = (m ((c.tc : Thread nD τ).loc main_arg0)) := by
  unfold V7 W7
  after_results_simp
  exact W6_arg0 m ρ c
theorem at7_arg9 : V7 m ρ c main_arg9 = (m ((c.tc : Thread nD τ).loc main_arg9)) := by
  unfold V7 W7
  after_results_simp
  exact W6_arg9 m ρ c
theorem at7_arg10 : V7 m ρ c main_arg10 = (m ((c.tc : Thread nD τ).loc main_arg10)) := by
  unfold V7 W7
  after_results_simp
  exact W6_arg10 m ρ c
theorem at7_v38 (q : Fin 128) : V7 m ρ c main_v38 (ix2 (0 : Fin 1) q) = (m ((c.tc : Thread nD τ).loc main_arg11)) (ix1 q) := by
  have h : V7 m ρ c main_v38 = shapeCast S1x128 (m ((c.tc : Thread nD τ).loc main_arg11)) shapeCasts_S128_S1x128 := by
    unfold V7 W7
    after_results_simp
    rw [W6_arg11]
    rfl
  rw [h]
  exact Cert.LibLreluRows.rowCast_apply _ _ q

/-- Region 1 leaves h_host. -/
theorem hhost_eq : W8 m ρ c (Proc.devRef .tc main_v39)
    = dense (meanFH (m ((c.tc : Thread nD τ).loc main_arg1)) (m ((c.tc : Thread nD τ).loc main_arg4)) (m ((c.tc : Thread nD τ).loc main_arg5))) (m ((c.tc : Thread nD τ).loc main_arg0)) (m ((c.tc : Thread nD τ).loc main_arg9)) (m ((c.tc : Thread nD τ).loc main_arg10)) (fun q => (m ((c.tc : Thread nD τ).loc main_arg11)) (ix1 q)) := by
  refine (W8_arr m ρ c 5).trans ((Region1.final (V7 m ρ) c).trans ?_)
  show dense (V7 m ρ c main_v35) (V7 m ρ c main_arg0) (V7 m ρ c main_arg9) (V7 m ρ c main_arg10)
      (fun q => V7 m ρ c main_v38 (ix2 (0 : Fin 1) q)) = _
  rw [at7_v35, at7_arg0, at7_arg9, at7_arg10, funext fun q => at7_v38 m ρ c q]

/-! ## Past region 1 -/

theorem W8_arg2 : W8 m ρ c (Proc.devRef .tc main_arg2) = (m ((c.tc : Thread nD τ).loc main_arg2)) :=
  (W8_of_ne m ρ c main_arg2 (by decide)).trans (by unfold W7; after_results_simp; exact W6_arg2 m ρ c)
theorem W8_arg3 : W8 m ρ c (Proc.devRef .tc main_arg3) = (m ((c.tc : Thread nD τ).loc main_arg3)) :=
  (W8_of_ne m ρ c main_arg3 (by decide)).trans (by unfold W7; after_results_simp; exact W6_arg3 m ρ c)
theorem W8_arg12 : W8 m ρ c (Proc.devRef .tc main_arg12) = (m ((c.tc : Thread nD τ).loc main_arg12)) :=
  (W8_of_ne m ρ c main_arg12 (by decide)).trans (by unfold W7; after_results_simp; exact W6_arg12 m ρ c)
theorem W8_arg13 : W8 m ρ c (Proc.devRef .tc main_arg13) = (m ((c.tc : Thread nD τ).loc main_arg13)) :=
  (W8_of_ne m ρ c main_arg13 (by decide)).trans (by unfold W7; after_results_simp; exact W6_arg13 m ρ c)
theorem W8_arg14 : W8 m ρ c (Proc.devRef .tc main_arg14) = (m ((c.tc : Thread nD τ).loc main_arg14)) :=
  (W8_of_ne m ρ c main_arg14 (by decide)).trans (by unfold W7; after_results_simp; exact W6_arg14 m ρ c)
theorem W8_arg18 : W8 m ρ c (Proc.devRef .tc main_arg18) = (m ((c.tc : Thread nD τ).loc main_arg18)) :=
  (W8_of_ne m ρ c main_arg18 (by decide)).trans (by unfold W7; after_results_simp; exact W6_arg18 m ρ c)
theorem W8_arg19 : W8 m ρ c (Proc.devRef .tc main_arg19) = (m ((c.tc : Thread nD τ).loc main_arg19)) :=
  (W8_of_ne m ρ c main_arg19 (by decide)).trans (by unfold W7; after_results_simp; exact W6_arg19 m ρ c)
theorem W8_v37 : W8 m ρ c (Proc.devRef .tc main_v37)
    = dense (meanHF (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg6)) (m ((c.tc : Thread nD τ).loc main_arg7)) (fun q => (m ((c.tc : Thread nD τ).loc main_arg8)) (ix1 q)) :=
  (W8_of_ne m ρ c main_v37 (by decide)).trans (by unfold W7; after_results_simp; exact hflow_eq m ρ c)

end Cert.Sage.Chain

end
-- ==== Proof.Region2.lean ====
/-
  Region 2 of the program as one matrix.

  The region runs its body once per grid step t < 40; step t reads rows 5000·t … 5000·t + 4999 of the two row-tiled
  operands and the whole of every other operand, and writes back rows 5000·t … of the result. Every stored tile is the
  head of the layer's formula on the loaded tiles (module Tile), a row-tiled operand's tile entry (p, k) is the array's entry (5000·t + p, k),
  so each written block is that block of ONE matrix — the head of the layer of the operand arrays as the region finds them —
  and the 40 blocks cover the result: the result array ends as that matrix.
-/
import proofs.«125828_j89163521065346_1_alg».proof.Proof.Gen.KernelIdeal.Frame
import proofs.«125828_j89163521065346_1_alg».proof.Proof.Tile

set_option maxRecDepth 16384

noncomputable section

namespace Cert.Sage.Region2

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix the region's result array ends holding, of the operand arrays as the region finds them. -/
abbrev G (c : Dev nD) : S200000x32.Idx → EReal :=
  project (dense (V c main_v57) (V c main_v37) (V c main_arg12) (V c main_arg13) (fun q => V c main_v58 (ix2 (0 : Fin 1) q))) (V c main_arg18) (fun o => V c main_v59 (ix2 (0 : Fin 1) o))

/-- The printed index maps over the grid: the row-tiled windows sit at block row t, every other window at block 0. -/
theorem idx_facts : ∀ t : Fin cfg2.N, win2_7.index t (0 : Fin 2) = t.val
    ∧ win2_7.index t (1 : Fin 2) = 0
    ∧ win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

/-- Every block row of the result is some step's. -/
theorem idx_onto : ∀ q0 : Fin 40, ∃ t : Fin cfg2.N, win2_7.index t = ![q0.val, 0] :=
  (by decide +kernel : ∀ q0 : Fin 40, ∃ t : Fin grid2.N, win2_7.index t = ![q0.val, 0])

/-- Row p of step t's tile is row 5000·t + p of the array. -/
def row (t : Fin cfg2.N) (p : Fin 5000) : Fin 200000 :=
  ⟨t.val * 5000 + p.val, by have h1 := t.isLt; have h2 : cfg2.N = 40 := N_2; have h3 := p.isLt; omega⟩

/-- Window 0's tile at step t, entry (p, k), is its array's entry (5000·t + p, k). -/
theorem read0 (c : Dev nD) (t : Fin cfg2.N) (p : Fin 5000) (k : Fin 128) :
    iblk2 V c 0 t (ix2 p k) = V c main_v57 (ix2 (row t p) k) := by
  show V c main_v57 (((cfg2.win 0).blk t).view.emb (ix2 p k)) = _
  refine congrArg (V c main_v57) ?_
  obtain ⟨e0, e1, e2, e3, e4, e5, e6, e7, e8, e9, e10, e11, e12, e13, e14, e15⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- Window 1's tile at step t, entry (p, k), is its array's entry (5000·t + p, k). -/
theorem read1 (c : Dev nD) (t : Fin cfg2.N) (p : Fin 5000) (k : Fin 128) :
    iblk2 V c 1 t (ix2 p k) = V c main_v37 (ix2 (row t p) k) := by
  show V c main_v37 (((cfg2.win 1).blk t).view.emb (ix2 p k)) = _
  refine congrArg (V c main_v37) ?_
  obtain ⟨e0, e1, e2, e3, e4, e5, e6, e7, e8, e9, e10, e11, e12, e13, e14, e15⟩ := idx_facts t
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- Window 2's tile at step t, entry (p, k), is its array's entry (p, k). -/
theorem read2 (c : Dev nD) (t : Fin cfg2.N) (p : Fin 128) (k : Fin 128) :
    iblk2 V c 2 t (ix2 p k) = V c main_arg12 (ix2 p k) := by
  show V c main_arg12 (((cfg2.win 2).blk t).view.emb (ix2 p k)) = _
  refine congrArg (V c main_arg12) ?_
  obtain ⟨e0, e1, e2, e3, e4, e5, e6, e7, e8, e9, e10, e11, e12, e13, e14, e15⟩ := idx_facts t
  funext a; apply Fin.ext
  match a with
  | ⟨0, _⟩ => show win2_2.index t (0 : Fin 2) * 128 + 1 * p.val = p.val; omega
  | ⟨1, _⟩ => show win2_2.index t (1 : Fin 2) * 128 + 1 * k.val = k.val; omega

/-- Window 3's tile at step t, entry (p, k), is its array's entry (p, k). -/
theorem read3 (c : Dev nD) (t : Fin cfg2.N) (p : Fin 128) (k : Fin 128) :
    iblk2 V c 3 t (ix2 p k) = V c main_arg13 (ix2 p k) := by
  show V c main_arg13 (((cfg2.win 3).blk t).view.emb (ix2 p k)) = _
  refine congrArg (V c main_arg13) ?_
  obtain ⟨e0, e1, e2, e3, e4, e5, e6, e7, e8, e9, e10, e11, e12, e13, e14, e15⟩ := idx_facts t
  funext a; apply Fin.ext
  match a with
  | ⟨0, _⟩ => show win2_3.index t (0 : Fin 2) * 128 + 1 * p.val = p.val; omega
  | ⟨1, _⟩ => show win2_3.index t (1 : Fin 2) * 128 + 1 * k.val = k.val; omega

/-- Window 4's tile at step t, entry (p, k), is its array's entry (p, k). -/
theorem read4 (c : Dev nD) (t : Fin cfg2.N) (p : Fin 1) (k : Fin 128) :
    iblk2 V c 4 t (ix2 p k) = V c main_v58 (ix2 p k) := by
  show V c main_v58 (((cfg2.win 4).blk t).view.emb (ix2 p k)) = _
  refine congrArg (V c main_v58) ?_
  obtain ⟨e0, e1, e2, e3, e4, e5, e6, e7, e8, e9, e10, e11, e12, e13, e14, e15⟩ := idx_facts t
  funext a; apply Fin.ext
  match a with
  | ⟨0, _⟩ => show win2_4.index t (0 : Fin 2) * 1 + 1 * p.val = p.val; omega
  | ⟨1, _⟩ => show win2_4.index t (1 : Fin 2) * 128 + 1 * k.val = k.val; omega

/-- Window 5's tile at step t, entry (p, k), is its array's entry (p, k). -/
theorem read5 (c : Dev nD) (t : Fin cfg2.N) (p : Fin 128) (k : Fin 32) :
    iblk2 V c 5 t (ix2 p k) = V c main_arg18 (ix2 p k) := by
  show V c main_arg18 (((cfg2.win 5).blk t).view.emb (ix2 p k)) = _
  refine congrArg (V c main_arg18) ?_
  obtain ⟨e0, e1, e2, e3, e4, e5, e6, e7, e8, e9, e10, e11, e12, e13, e14, e15⟩ := idx_facts t
  funext a; apply Fin.ext
  match a with
  | ⟨0, _⟩ => show win2_5.index t (0 : Fin 2) * 128 + 1 * p.val = p.val; omega
  | ⟨1, _⟩ => show win2_5.index t (1 : Fin 2) * 32 + 1 * k.val = k.val; omega

/-- Window 6's tile at step t, entry (p, k), is its array's entry (p, k). -/
theorem read6 (c : Dev nD) (t : Fin cfg2.N) (p : Fin 1) (k : Fin 32) :
    iblk2 V c 6 t (ix2 p k) = V c main_v59 (ix2 p k) := by
  show V c main_v59 (((cfg2.win 6).blk t).view.emb (ix2 p k)) = _
  refine congrArg (V c main_v59) ?_
  obtain ⟨e0, e1, e2, e3, e4, e5, e6, e7, e8, e9, e10, e11, e12, e13, e14, e15⟩ := idx_facts t
  funext a; apply Fin.ext
  match a with
  | ⟨0, _⟩ => show win2_6.index t (0 : Fin 2) * 1 + 1 * p.val = p.val; omega
  | ⟨1, _⟩ => show win2_6.index t (1 : Fin 2) * 32 + 1 * k.val = k.val; omega

/-- The layer's formula on step t's tiles is the layer's formula on the arrays at row 5000·t + p. -/
theorem tile_dense (c : Dev nD) (t : Fin cfg2.N) (p : Fin 5000) (q : Fin 128) :
    denseAt (iblk2 V c 0 t) (iblk2 V c 1 t) (iblk2 V c 2 t) (iblk2 V c 3 t) (fun q => iblk2 V c 4 t (ix2 (0 : Fin 1) q)) p q
      = denseAt (V c main_v57) (V c main_v37) (V c main_arg12) (V c main_arg13) (fun q => V c main_v58 (ix2 (0 : Fin 1) q)) (row t p) q := by
  unfold denseAt
  refine congrArg lr (congrArg₂ (· + ·) (congrArg₂ (· + ·) (Finset.sum_congr rfl fun k _ => congrArg₂ (· * ·) ?_ ?_)
    (Finset.sum_congr rfl fun k _ => congrArg₂ (· * ·) ?_ ?_)) ?_)
  · exact read0 V c t p k
  · exact read2 V c t k q
  · exact read1 V c t p k
  · exact read3 V c t k q
  · exact read4 V c t (0 : Fin 1) q

/-- The stored tile of step t is the head of the layer's rows 5000·t …: entry (p, o). -/
theorem tile_head (c : Dev nD) (t : Fin cfg2.N) (p : Fin 5000) (o : Fin 32) :
    projectAt (dense (iblk2 V c 0 t) (iblk2 V c 1 t) (iblk2 V c 2 t) (iblk2 V c 3 t) (fun q => iblk2 V c 4 t (ix2 (0 : Fin 1) q)))
        (iblk2 V c 5 t) (fun o => iblk2 V c 6 t (ix2 (0 : Fin 1) o)) p o
      = projectAt (dense (V c main_v57) (V c main_v37) (V c main_arg12) (V c main_arg13) (fun q => V c main_v58 (ix2 (0 : Fin 1) q))) (V c main_arg18) (fun o => V c main_v59 (ix2 (0 : Fin 1) o)) (row t p) o := by
  unfold projectAt
  refine congrArg₂ (· + ·) (Finset.sum_congr rfl fun k _ => congrArg₂ (· * ·) ?_ ?_) ?_
  · rw [dense_apply, dense_apply]; exact tile_dense V c t p k
  · exact read5 V c t k o
  · exact read6 V c t (0 : Fin 1) o

/-- What step t writes back is block t of the matrix. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz, View.ld_unit_zero (S := S128x32) hz, View.ld_unit_zero (S := S1x32) hz]
  funext j
  obtain ⟨p, q, rfl⟩ : ∃ (p : Fin 5000) (q : Fin 32), j = ix2 p q := ⟨j 0, j 1, eq_ix2 j⟩
  have hemb : ((cfg2.win 7).blk t).view.emb (ix2 p q) = ix2 (row t p) q := by
    obtain ⟨e0, e1, e2, e3, e4, e5, e6, e7, e8, e9, e10, e11, e12, e13, e14, e15⟩ := idx_facts t
    funext a; apply Fin.ext
    match a with
    | ⟨0, _⟩ => show win2_7.index t (0 : Fin 2) * 5000 + 1 * p.val = t.val * 5000 + p.val; omega
    | ⟨1, _⟩ => show win2_7.index t (1 : Fin 2) * 32 + 1 * q.val = q.val; omega
  show k2_pay1 (iblk2 V c 0 t) (iblk2 V c 1 t) (iblk2 V c 2 t) (iblk2 V c 3 t) (iblk2 V c 4 t) (iblk2 V c 5 t) (iblk2 V c 6 t) (ix2 p q) = G V c (((cfg2.win 7).blk t).view.emb (ix2 p q))
  rw [hemb]
  refine (Cert.Sage.Tile.pay2_apply (iblk2 V c 0 t) (iblk2 V c 1 t) (iblk2 V c 2 t) (iblk2 V c 3 t) (iblk2 V c 4 t) (iblk2 V c 5 t) (iblk2 V c 6 t) p q).trans ?_
  exact tile_head V c t p q

/-- An index of the result is in step t's block iff each coordinate is in the block's range. -/
theorem mem_blk (t : Fin cfg2.N) (i : S200000x32.Idx) :
    i ∈ ((cfg2.win 7).blk t).view.set ↔ ∀ a : Fin 2, win2_7.index t a * S5000x32.size a ≤ (i a).val ∧ (i a).val < win2_7.index t a * S5000x32.size a + S5000x32.size a := by
  show i ∈ ((View.whole main_v60).slice (win2_7.rect t)).set ↔ _
  rw [View.set_slice_whole, Rect.mem_set_unit]
  exact Iff.rfl

/-- The blocks cover the result: row r is in step r / 5000's block. -/
theorem cover (i : S200000x32.Idx) : ∃ t : Fin cfg2.N, (cfg2.win 7).flush t = true ∧ i ∈ ((cfg2.win 7).blk t).view.set := by
  have hi0 : (i 0).val < 200000 := (i 0).isLt
  have hi1 : (i 1).val < 32 := (i 1).isLt
  obtain ⟨t, ht⟩ := idx_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 32 ≤ (i 1).val ∧ (i 1).val < win2_7.index t (1 : Fin 2) * 32 + 32; omega

/-- The result array after the region is the matrix. -/
theorem final (c : Dev nD) : (dat2 V c).arrAt 7 cfg2.N = G V c :=
  (dat2 V c).arrAt_eq_of_cover 7 (G V c) (fun t _ => flushed_eq V c t) (cover)

end Cert.Sage.Region2

end
-- ==== Proof.Chain2.lean ====
/-
  The idealized program's result is the network.

  At region 2's entry the aggregated operand holds the mean over host→flow edges of what region 1 left (h_host), the
  second operand still holds what region 0 left (h_flow), and the weights and biases are arguments as launched. So
  region 2 leaves, in the result buffer, the head of the last layer: the network of the arguments.
-/
import proofs.«125828_j89163521065346_1_alg».proof.Proof.Chain1
import proofs.«125828_j89163521065346_1_alg».proof.Proof.Region2

set_option maxRecDepth 16384

noncomputable section

namespace Cert.Sage.Chain

open Cert.KernelIdeal Cert.KernelIdeal.Gen Idealize.ShloMosaic Idealize.ShloMosaic.TcCoe Idealize.ShloMosaic.ValueIdx Idealize.SL.Sem
open Idealize.ShloMosaic.StableHlo Cert.Sage Cert.Sage.Net

variable (m : (ℓ : Loc nD τ sig) → Buf (Elt Ideal) ℓ) (ρ : Dev nD → PrngReg) (c : Dev nD)

/-! ## Region 2's entry -/

set_option maxHeartbeats 4000000 in
theorem at11_v57 : V11 m ρ c main_v57
    = meanHF' (dense (meanFH (m ((c.tc : Thread nD τ).loc main_arg1)) (m ((c.tc : Thread nD τ).loc main_arg4)) (m ((c.tc : Thread nD τ).loc main_arg5))) (m ((c.tc : Thread nD τ).loc main_arg0)) (m ((c.tc : Thread nD τ).loc main_arg9)) (m ((c.tc : Thread nD τ).loc main_arg10)) (fun q => (m ((c.tc : Thread nD τ).loc main_arg11)) (ix1 q))) (m ((c.tc : Thread nD τ).loc main_arg2)) (m ((c.tc : Thread nD τ).loc main_arg3)) := by
  unfold V11 W11 W10 W9
  after_results_simp
  simp only [TRef.toBuf, TRef.ofBuf, cast_eq]
  rw [hhost_eq, W8_arg2, W8_arg3]
  unfold meanHF'
  rfl
theorem at11_v37 : V11 m ρ c main_v37
    = dense (meanHF (m ((c.tc : Thread nD τ).loc main_arg0)) (m ((c.tc : Thread nD τ).loc main_arg2)) (m ((c.tc : Thread nD τ).loc main_arg3))) (m ((c.tc : Thread nD τ).loc main_arg1)) (m ((c.tc : Thread nD τ).loc main_arg6)) (m ((c.tc : Thread nD τ).loc main_arg7)) (fun q => (m ((c.tc : Thread nD τ).loc main_arg8)) (ix1 q)) := by
  unfold V11 W11 W10 W9
  after_results_simp
  exact W8_v37 m ρ c
theorem at11_arg12 : V11 m ρ c main_arg12 = (m ((c.tc : Thread nD τ).loc main_arg12)) := by
  unfold V11 W11 W10 W9
  after_results_simp
  exact W8_arg12 m ρ c
theorem at11_arg13 : V11 m ρ c main_arg13 = (m ((c.tc : Thread nD τ).loc main_arg13)) := by
  unfold V11 W11 W10 W9
  after_results_simp
  exact W8_arg13 m ρ c
theorem at11_arg18 : V11 m ρ c main_arg18 = (m ((c.tc : Thread nD τ).loc main_arg18)) := by
  unfold V11 W11 W10 W9
  after_results_simp
  exact W8_arg18 m ρ c
theorem at11_v58 (q : Fin 128) : V11 m ρ c main_v58 (ix2 (0 : Fin 1) q) = (m ((c.tc : Thread nD τ).loc main_arg14)) (ix1 q) := by
  have h : V11 m ρ c main_v58 = shapeCast S1x128 (m ((c.tc : Thread nD τ).loc main_arg14)) shapeCasts_S128_S1x128 := by
    unfold V11 W11 W10 W9
    after_results_simp
    rw [W8_arg14]
    rfl
  rw [h]
  exact Cert.LibLreluRows.rowCast_apply _ _ q
theorem at11_v59 (o : Fin 32) : V11 m ρ c main_v59 (ix2 (0 : Fin 1) o) = (m ((c.tc : Thread nD τ).loc main_arg19)) (ix1 o) := by
  have h : V11 m ρ c main_v59 = shapeCast S1x32 (m ((c.tc : Thread nD τ).loc main_arg19)) shapeCasts_S32_S1x32 := by
    unfold V11 W11 W10 W9
    after_results_simp
    rw [W8_arg19]
    rfl
  rw [h]
  exact Cert.LibLreluRows.rowCast_apply _ _ o

/-- Region 2 leaves the network's result in the result buffer. -/
theorem result_eq : W12 m ρ c (Proc.devRef .tc main_v60)
    = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg18)) (m ((c.tc : Thread nD τ).loc main_arg19)) := by
  refine (W12_arr m ρ c 7).trans ((Region2.final (V11 m ρ) c).trans ?_)
  show project (dense (V11 m ρ c main_v57) (V11 m ρ c main_v37) (V11 m ρ c main_arg12) (V11 m ρ c main_arg13)
      (fun q => V11 m ρ c main_v58 (ix2 (0 : Fin 1) q))) (V11 m ρ c main_arg18)
      (fun o => V11 m ρ c main_v59 (ix2 (0 : Fin 1) o)) = _
  rw [at11_v57, at11_v37, at11_arg12, at11_arg13, at11_arg18, funext fun q => at11_v58 m ρ c q,
    funext fun o => at11_v59 m ρ c o]
  rfl

end Cert.Sage.Chain

end
-- ==== Proof.RefNet.lean ====
/-
  The reference program's result is the network.

  Its generated run ends with the result buffer at the host operations' composed term. In that term each of the three
  layers is the host spelling of a layer (two dot products, the bias laid along the rows between them, the rectifier
  over rank-0 constants) and the last two lines are the host spelling of the head: module Sage reads them as its
  matrices, and what is left are the three segment means, spelt exactly as module Net names them.
-/
import proofs.«125828_j89163521065346_1_alg».proof.Proof.Gen.ReferenceIdeal.Run
import proofs.«125828_j89163521065346_1_alg».proof.Proof.Net

set_option maxRecDepth 16384

noncomputable section

namespace Cert.Sage.RefNet

open Cert.ReferenceIdeal Cert.ReferenceIdeal.Gen Cert.ReferenceIdeal.Value Idealize.ShloMosaic Idealize.ShloMosaic.TcCoe Idealize.ShloMosaic.ValueIdx Idealize.SL.Sem Cert.Sage Cert.Sage.Net

theorem result_eq (m : (ℓ : Loc nD τ sig) → Buf (Elt Ideal) ℓ) (c : Dev nD) :
    res_main_v119 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg18)) (m ((c.tc : Thread nD τ).loc main_arg19)) := by
  unfold res_main_v119 net meanHF' meanFH meanHF
  rw [hostProject_eq dot_S200000x128_S128x32_S200000x32_1_0_0_1_n_n rfl,
    hostDense_eq dot_S200000x128_S128x128_S200000x128_1_0_0_1_n_n rfl,
    hostDense_eq dot_S20000x64_S64x128_S20000x128_1_0_0_1_n_n rfl,
    hostDense_eq dot_S200000x64_S64x128_S200000x128_1_0_0_1_n_n rfl]

end Cert.Sage.RefNet

end
-- ==== Proof.lean ====
/-
  The certificate of a two-layer message-passing network on a bipartite graph of 20000 hosts and 200000 flows.

  Both programs compute, from node features, edge lists and weights,

      h_flow = layer (mean of x_host over host→flow edges) x_flow
      h_host = layer (mean of x_flow over flow→host edges) x_host
      out    = head (layer (mean of h_host over host→flow edges) h_flow),

  where a layer's entry (p, q) is lr((Σ_k agg[p,k]·Wl[k,q] + Σ_k x[p,k]·Wr[k,q]) + b[q]) with lr the leaky rectifier
  of slope 0.01, and the head is one more product and bias. The tiled program runs each layer 5000 rows at a time on
  the matrix unit (its changes of float format are the identity on extended reals) and adds the bias last; the
  reference adds the bias between the two products. On the extended reals (s + b) + t = (s + t) + b, so the two
  results are equal entry by entry, for every input: the precondition is not used. The segment means are the same
  host operations in both programs and are never opened.

  Modules: Sage (the formulas and the host spelling of a layer), Tile (what one grid step stores), Region0/1/2 (a
  region's result array as one matrix), KRun and Chain0/1/2 (the tiled program's run and its result through the run's
  boundaries), Net and RefNet (the network as one function; the reference's result is that function).
-/
import proofs.«125828_j89163521065346_1_alg».proof.Defs
import proofs.«125828_j89163521065346_1_alg».proof.Proof.Gen.Kernel
import proofs.«125828_j89163521065346_1_alg».proof.Proof.Gen.Kernel.Frame
import proofs.«125828_j89163521065346_1_alg».proof.Proof.Gen.KernelIdeal
import proofs.«125828_j89163521065346_1_alg».proof.Proof.Gen.KernelIdeal.Frame
import proofs.«125828_j89163521065346_1_alg».proof.Proof.Gen.ReferenceIdeal
import proofs.«125828_j89163521065346_1_alg».proof.Proof.Gen.ReferenceIdeal.Run
import proofs.«125828_j89163521065346_1_alg».proof.Proof.Gen.Pre_finite_inputs
import proofs.«125828_j89163521065346_1_alg».proof.Proof.KRun
import proofs.«125828_j89163521065346_1_alg».proof.Proof.Chain2
import proofs.«125828_j89163521065346_1_alg».proof.Proof.RefNet
import Idealize.ShloMosaic.Adequacy
import Idealize.ShloMosaic.Init

noncomputable section

namespace Cert.Proof

open Idealize.ShloMosaic Idealize.SL.Sem

/-- The tiled program as printed terminates without a fault and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network's result of those arguments. -/
theorem algebraic : Cert.algebraic_KernelIdeal_ReferenceIdeal := by
  intro m ρ m' ρ' _ hagree
  refine ⟨fun c => Cert.Sage.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.Sage.Chain.result_eq m ρ c), (h c).2⟩)
      (Cert.KernelIdeal.Final.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19⟩ := hagree c
    rw [Cert.Sage.RefNet.result_eq, a0, a1, a2, a3, a4, a5, a6, a7, a8, a9, a10, a11, a12, a13, a14, a18, a19]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
